-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S16x8192 : Shape := ⟨2, ![16, 8192]⟩
abbrev S256x256 : Shape := ⟨2, ![256, 256]⟩
abbrev S256 : Shape := ⟨1, ![256]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x8192x256 .f32) (main_arg1 : IVec S16x8192 32) (main_arg2 : FVec F S256x256 .f32) (main_arg3 : FVec F S256 .f32) (main_arg4 : FVec F S256 .f32) (main_arg5 : FVec F S256 .f32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_v13 main_v16
-- ==== Kernel.lean ====
abbrev S16x8192x256 : Shape := ⟨3, ![16, 8192, 256]⟩
abbrev S16x8192 : Shape := ⟨2, ![16, 8192]⟩
abbrev S256x256 : Shape := ⟨2, ![256, 256]⟩
abbrev S256 : Shape := ⟨1, ![256]⟩
abbrev S_ : Shape := ⟨0, ![]⟩
abbrev S16x1 : Shape := ⟨2, ![16, 1]⟩
abbrev S16x8191 : Shape := ⟨2, ![16, 8191]⟩
abbrev S16 : Shape := ⟨1, ![16]⟩
abbrev S131072 : Shape := ⟨1, ![131072]⟩
abbrev S16x8192x1 : Shape := ⟨3, ![16, 8192, 1]⟩
abbrev S16x8192x257 : Shape := ⟨3, ![16, 8192, 257]⟩
abbrev S131072x257 : Shape := ⟨2, ![131072, 257]⟩
abbrev S131073x257 : Shape := ⟨2, ![131073, 257]⟩
abbrev S131072x1 : Shape := ⟨2, ![131072, 1]⟩
abbrev S8x512x256 : Shape := ⟨3, ![8, 512, 256]⟩
abbrev S8x512 : Shape := ⟨2, ![8, 512]⟩
abbrev S8x512x1 : Shape := ⟨3, ![8, 512, 1]⟩
abbrev S4096x256 : Shape := ⟨2, ![4096, 256]⟩
abbrev S1x1x256 : Shape := ⟨3, ![1, 1, 256]⟩

abbrev nBuf : Space → Nat
  | .hbm => 49
  | .vmem => 12
  | .smem => 0
  | _ => 0

abbrev bufTy : (tb : Table) → Fin (tcTables nBuf tb) → BufTy
  | .hbm, ⟨0, _⟩ => ⟨S16x8192x256, .f32⟩
  | .hbm, ⟨1, _⟩ => ⟨S16x8192, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .i32⟩
  | .hbm, ⟨7, _⟩ => ⟨S16x8192, .i32⟩
  | .hbm, ⟨8, _⟩ => ⟨S16x8192, .i1⟩
  | .hbm, ⟨9, _⟩ => ⟨S16x8192, .i1⟩
  | .hbm, ⟨10, _⟩ => ⟨S_, .i1⟩
  | .hbm, ⟨11, _⟩ => ⟨S16x1, .i1⟩
  | .hbm, ⟨12, _⟩ => ⟨S16x8191, .i1⟩
  | .hbm, ⟨13, _⟩ => ⟨S16x8192, .i1⟩
  | .hbm, ⟨14, _⟩ => ⟨S16x8192, .i1⟩
  | .hbm, ⟨15, _⟩ => ⟨S16x8192, .i32⟩
  | .hbm, ⟨16, _⟩ => ⟨S_, .i32⟩
  | .hbm, ⟨17, _⟩ => ⟨S_, .i32⟩
  | .hbm, ⟨18, _⟩ => ⟨S16x8192, .i32⟩
  | .hbm, ⟨19, _⟩ => ⟨S_, .i32⟩
  | .hbm, ⟨20, _⟩ => ⟨S16x8192, .i32⟩
  | .hbm, ⟨21, _⟩ => ⟨S16x8192, .i32⟩
  | .hbm, ⟨22, _⟩ => ⟨S16, .i32⟩
  | .hbm, ⟨23, _⟩ => ⟨S16x1, .i32⟩
  | .hbm, ⟨24, _⟩ => ⟨S_, .i32⟩
  | .hbm, ⟨25, _⟩ => ⟨S16x1, .i32⟩
  | .hbm, ⟨26, _⟩ => ⟨S16x1, .i32⟩
  | .hbm, ⟨27, _⟩ => ⟨S16x8192, .i32⟩
  | .hbm, ⟨28, _⟩ => ⟨S16x8192, .i32⟩
  | .hbm, ⟨29, _⟩ => ⟨S_, .i32⟩
  | .hbm, ⟨30, _⟩ => ⟨S_, .i32⟩
  | .hbm, ⟨31, _⟩ => ⟨S16x8192, .i32⟩
  | .hbm, ⟨32, _⟩ => ⟨S16x8192, .i32⟩
  | .hbm, ⟨33, _⟩ => ⟨S131072, .i32⟩
  | .hbm, ⟨34, _⟩ => ⟨S_, .f32⟩
  | .hbm, ⟨35, _⟩ => ⟨S16x8192x1, .f32⟩
  | .hbm, ⟨36, _⟩ => ⟨S16x8192x257, .f32⟩
  | .hbm, ⟨37, _⟩ => ⟨S131072x257, .f32⟩
  | .hbm, ⟨38, _⟩ => ⟨S_, .f32⟩
  | .hbm, ⟨39, _⟩ => ⟨S131073x257, .f32⟩
  | .hbm, ⟨40, _⟩ => ⟨S131072x1, .i32⟩
  | .hbm, ⟨41, _⟩ => ⟨S131073x257, .f32⟩
  | .hbm, ⟨42, _⟩ => ⟨S131072x257, .f32⟩
  | .hbm, ⟨43, _⟩ => ⟨S16x8192x257, .f32⟩
  | .hbm, ⟨44, _⟩ => ⟨S16x8192x256, .f32⟩
  | .hbm, ⟨45, _⟩ => ⟨S16x8192x1, .f32⟩
  | .hbm, ⟨46, _⟩ => ⟨S16x8192, .f32⟩
  | .hbm, ⟨47, _⟩ => ⟨S16x8192x256, .f32⟩
  | .hbm, ⟨48, _⟩ => ⟨S16x8192, .f32⟩
  | .local _ .vmem, ⟨0, _⟩ => ⟨S8x512x256, .f32⟩
  | .local _ .vmem, ⟨1, _⟩ => ⟨S8x512x256, .f32⟩
  | .local _ .vmem, ⟨2, _⟩ => ⟨S8x512, .f32⟩
  | .local _ .vmem, ⟨3, _⟩ => ⟨S8x512, .f32⟩
  | .local _ .vmem, ⟨4, _⟩ => ⟨S256x256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S8x512x256, .f32⟩
  | .local _ .vmem, ⟨9, _⟩ => ⟨S8x512x256, .f32⟩
  | .local _ .vmem, ⟨10, _⟩ => ⟨S8x512, .f32⟩
  | .local _ .vmem, ⟨11, _⟩ => ⟨S8x512, .f32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_call0_c : Ref sig .tc := ⟨.hbm, 16, rfl⟩
abbrev main_call0_call0_v0 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S16x8192 : S_.BroadcastsInDim S16x8192 (![] : Fin 0 → Fin S16x8192.rank)
  bcast_S_S16x1 : S_.BroadcastsInDim S16x1 (![] : Fin 0 → Fin S16x1.rank)
  slices_S16x8192_S16x8191_0_0 : S16x8192.Slices ![0, 0] S16x8191
  concatenates_S16x1_S16x8191_S16x8192_d1 : Shape.Concatenates [S16x1, S16x8191] S16x8192 1
  natLt_1_32 : 1 < 32
  bcast_S_S_ : S_.BroadcastsInDim S_ (![] : Fin 0 → Fin S_.rank)
  reduceWindows_S16x8192_S16x8192_w1s1p0_0_w8192s1p8191_0 : S16x8192.ReduceWindows (![1, 8192] : Fin 2 → Nat) ![1, 1] ![0, 8191] ![0, 0] S16x8192
  h_S_ : 0 < S_.numel
  bcast_S16_S16x1_0 : S16.BroadcastsInDim S16x1 (![0] : Fin 1 → Fin S16x1.rank)
  bcast_S16x1_S16x8192_0_1 : S16x1.BroadcastsInDim S16x8192 (![0, 1] : Fin 2 → Fin S16x8192.rank)
  shapeCasts_S16x8192_S131072 : S16x8192.ShapeCasts S131072
  bcast_S_S16x8192x1 : S_.BroadcastsInDim S16x8192x1 (![] : Fin 0 → Fin S16x8192x1.rank)
  concatenates_S16x8192x256_S16x8192x1_S16x8192x257_d2 : Shape.Concatenates [S16x8192x256, S16x8192x1] S16x8192x257 2
  shapeCasts_S16x8192x257_S131072x257 : S16x8192x257.ShapeCasts S131072x257
  bcast_S_S131073x257 : S_.BroadcastsInDim S131073x257 (![] : Fin 0 → Fin S131073x257.rank)
  bcast_S131072_S131072x1_0 : S131072.BroadcastsInDim S131072x1 (![0] : Fin 1 → Fin S131072x1.rank)
  slices_S131073x257_S131072x257_0_0 : S131073x257.Slices ![0, 0] S131072x257
  shapeCasts_S131072x257_S16x8192x257 : S131072x257.ShapeCasts S16x8192x257
  slices_S16x8192x257_S16x8192x256_0_0_0 : S16x8192x257.Slices ![0, 0, 0] S16x8192x256
  slices_S16x8192x257_S16x8192x1_0_0_256 : S16x8192x257.Slices ![0, 0, 256] S16x8192x1
  shapeCasts_S16x8192x1_S16x8192 : S16x8192x1.ShapeCasts S16x8192
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x256_S8x512x256_0_0_0 : ∀ a, (![0, 0, 0] : Fin 3 → Nat) a + S8x512x256.size a ≤ S8x512x256.size a
  h_S8x512x256 : 0 < S8x512x256.numel
  shapeCasts_S8x512x256_S8x512x256 : S8x512x256.ShapeCasts S8x512x256
  shapeCasts_S8x512_S8x512x1 : S8x512.ShapeCasts S8x512x1
  broadcasts_S8x512x1_S8x512x256 : S8x512x1.Broadcasts S8x512x256
  bitsLt_bf16_f32 : FTy.bits .bf16 < FTy.bits .f32
  shapeCasts_S8x512x256_S4096x256 : S8x512x256.ShapeCasts S4096x256
  inb_S256x256_S256x256_0_0 : ∀ a, (![0, 0] : Fin 2 → Nat) a + S256x256.size a ≤ S256x256.size a
  h_S256x256 : 0 < S256x256.numel
  shapeCasts_S4096x256_S8x512x256 : S4096x256.ShapeCasts S8x512x256
  inb_S256_S256_0 : ∀ a, (![0] : Fin 1 → Nat) a + S256.size a ≤ S256.size a
  h_S256 : 0 < S256.numel
  shapeCasts_S256_S1x1x256 : S256.ShapeCasts S1x1x256
  broadcasts_S1x1x256_S8x512x256 : S1x1x256.Broadcasts S8x512x256
  reduces_S8x512x256_S8x512 : S8x512x256.Reduces [2] S8x512
  scatter_S131073x257_S131072x1_S131072x257_1_0_0_1_wf : ScatterDims.WF S131073x257 S131072x1 S131072x257 [1] [0] [0] 1
  dot_S4096x256_S256x256_S4096x256_1_1_0_0_n_n_wf : DotDims.WF S4096x256 S256x256 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S16x8192x256.size a
  hwx0_0 : ∀ i : grid0.Coords, EltTy.bits .f32 = 32 ∨ (Rect.block (s := S16x8192x256) S8x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S16x8192.size a
  hwx0_1 : ∀ i : grid0.Coords, EltTy.bits .f32 = 32 ∨ (Rect.block (s := S16x8192) S8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512x256.size a ≤ S16x8192x256.size a
  hwx0_6 : ∀ i : grid0.Coords, EltTy.bits .f32 = 32 ∨ (Rect.block (s := S16x8192x256) S8x512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x512.size a ≤ S16x8192.size a
  hwx0_7 : ∀ i : grid0.Coords, EltTy.bits .f32 = 32 ∨ (Rect.block (s := S16x8192) S8x512.size (cc0_transform_7 i) (hinb0_7 i)).WholeWords (EltTy.packing .f32)

variable [Facts₀]

def scatter_S131073x257_S131072x1_S131072x257_1_0_0_1 : ScatterDims S131073x257 S131072x1 S131072x257 where
  updateWindowDims := [1]
  insertedWindowDims := [0]
  scatterDimsToOperandDims := [0]
  indexVectorDim := 1
  wf := scatter_S131073x257_S131072x1_S131072x257_1_0_0_1_wf
def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_v27) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30_0) S8x512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v30_1) S8x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x8192x256 : Shape := ⟨3, ![16, 8192, 256]⟩
abbrev S16x8192 : Shape := ⟨2, ![16, 8192]⟩
abbrev S256x256 : Shape := ⟨2, ![256, 256]⟩
abbrev S256 : Shape := ⟨1, ![256]⟩
abbrev S_ : Shape := ⟨0, ![]⟩
abbrev S16x1 : Shape := ⟨2, ![16, 1]⟩
abbrev S16x8191 : Shape := ⟨2, ![16, 8191]⟩
abbrev S16 : Shape := ⟨1, ![16]⟩
abbrev S131072 : Shape := ⟨1, ![131072]⟩
abbrev S131072x256 : Shape := ⟨2, ![131072, 256]⟩
abbrev S131073x256 : Shape := ⟨2, ![131073, 256]⟩
abbrev S131072x1 : Shape := ⟨2, ![131072, 1]⟩
abbrev S131073 : Shape := ⟨1, ![131073]⟩
abbrev S16x8192x1 : Shape := ⟨3, ![16, 8192, 1]⟩
abbrev S1x1x256 : Shape := ⟨3, ![1, 1, 256]⟩

abbrev nBuf : Space → Nat
  | .hbm => 92
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S16x8192, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .i32⟩
  | .hbm, ⟨7, _⟩ => ⟨S16x8192, .i32⟩
  | .hbm, ⟨8, _⟩ => ⟨S16x8192, .i1⟩
  | .hbm, ⟨9, _⟩ => ⟨S16x8192, .i1⟩
  | .hbm, ⟨10, _⟩ => ⟨S_, .i1⟩
  | .hbm, ⟨11, _⟩ => ⟨S16x1, .i1⟩
  | .hbm, ⟨12, _⟩ => ⟨S16x8191, .i1⟩
  | .hbm, ⟨13, _⟩ => ⟨S16x8192, .i1⟩
  | .hbm, ⟨14, _⟩ => ⟨S16x8192, .i1⟩
  | .hbm, ⟨15, _⟩ => ⟨S16x8192, .i32⟩
  | .hbm, ⟨16, _⟩ => ⟨S_, .i32⟩
  | .hbm, ⟨17, _⟩ => ⟨S_, .i32⟩
  | .hbm, ⟨18, _⟩ => ⟨S16x8192, .i32⟩
  | .hbm, ⟨19, _⟩ => ⟨S_, .i32⟩
  | .hbm, ⟨20, _⟩ => ⟨S16x8192, .i32⟩
  | .hbm, ⟨21, _⟩ => ⟨S16x8192, .i32⟩
  | .hbm, ⟨22, _⟩ => ⟨S16, .i32⟩
  | .hbm, ⟨23, _⟩ => ⟨S16x1, .i32⟩
  | .hbm, ⟨24, _⟩ => ⟨S_, .i32⟩
  | .hbm, ⟨25, _⟩ => ⟨S16x1, .i32⟩
  | .hbm, ⟨26, _⟩ => ⟨S16x1, .i32⟩
  | .hbm, ⟨27, _⟩ => ⟨S16x8192, .i32⟩
  | .hbm, ⟨28, _⟩ => ⟨S16x8192, .i32⟩
  | .hbm, ⟨29, _⟩ => ⟨S_, .i32⟩
  | .hbm, ⟨30, _⟩ => ⟨S_, .i32⟩
  | .hbm, ⟨31, _⟩ => ⟨S16x8192, .i32⟩
  | .hbm, ⟨32, _⟩ => ⟨S16x8192, .i32⟩
  | .hbm, ⟨33, _⟩ => ⟨S131072, .i32⟩
  | .hbm, ⟨34, _⟩ => ⟨S131072x256, .f32⟩
  | .hbm, ⟨35, _⟩ => ⟨S_, .f32⟩
  | .hbm, ⟨36, _⟩ => ⟨S131073x256, .f32⟩
  | .hbm, ⟨37, _⟩ => ⟨S131072x1, .i32⟩
  | .hbm, ⟨38, _⟩ => ⟨S131073x256, .f32⟩
  | .hbm, ⟨39, _⟩ => ⟨S131072x256, .f32⟩
  | .hbm, ⟨40, _⟩ => ⟨S_, .f32⟩
  | .hbm, ⟨41, _⟩ => ⟨S131072, .f32⟩
  | .hbm, ⟨42, _⟩ => ⟨S_, .f32⟩
  | .hbm, ⟨43, _⟩ => ⟨S131073, .f32⟩
  | .hbm, ⟨44, _⟩ => ⟨S131072x1, .i32⟩
  | .hbm, ⟨45, _⟩ => ⟨S131073, .f32⟩
  | .hbm, ⟨46, _⟩ => ⟨S131072, .f32⟩
  | .hbm, ⟨47, _⟩ => ⟨S16x8192x256, .f32⟩
  | .hbm, ⟨48, _⟩ => ⟨S16x8192, .f32⟩
  | .hbm, ⟨49, _⟩ => ⟨S_, .f32⟩
  | .hbm, ⟨50, _⟩ => ⟨S16x8192, .f32⟩
  | .hbm, ⟨51, _⟩ => ⟨S16x8192, .i1⟩
  | .hbm, ⟨52, _⟩ => ⟨S16x8192, .f32⟩
  | .hbm, ⟨53, _⟩ => ⟨S_, .f32⟩
  | .hbm, ⟨54, _⟩ => ⟨S16x8192, .f32⟩
  | .hbm, ⟨55, _⟩ => ⟨S16x8192, .f32⟩
  | .hbm, ⟨56, _⟩ => ⟨S16x8192x1, .f32⟩
  | .hbm, ⟨57, _⟩ => ⟨S16x8192x256, .f32⟩
  | .hbm, ⟨58, _⟩ => ⟨S16x8192x256, .f32⟩
  | .hbm, ⟨59, _⟩ => ⟨S16x8192x256, .f32⟩
  | .hbm, ⟨60, _⟩ => ⟨S1x1x256, .f32⟩
  | .hbm, ⟨61, _⟩ => ⟨S16x8192x256, .f32⟩
  | .hbm, ⟨62, _⟩ => ⟨S16x8192x256, .f32⟩
  | .hbm, ⟨63, _⟩ => ⟨S_, .f32⟩
  | .hbm, ⟨64, _⟩ => ⟨S16x8192, .f32⟩
  | .hbm, ⟨65, _⟩ => ⟨S16x8192x1, .f32⟩
  | .hbm, ⟨66, _⟩ => ⟨S_, .f32⟩
  | .hbm, ⟨67, _⟩ => ⟨S16x8192x1, .f32⟩
  | .hbm, ⟨68, _⟩ => ⟨S16x8192x1, .f32⟩
  | .hbm, ⟨69, _⟩ => ⟨S16x8192x256, .f32⟩
  | .hbm, ⟨70, _⟩ => ⟨S16x8192x256, .f32⟩
  | .hbm, ⟨71, _⟩ => ⟨S16x8192x256, .f32⟩
  | .hbm, ⟨72, _⟩ => ⟨S_, .f32⟩
  | .hbm, ⟨73, _⟩ => ⟨S16x8192, .f32⟩
  | .hbm, ⟨74, _⟩ => ⟨S16x8192x1, .f32⟩
  | .hbm, ⟨75, _⟩ => ⟨S_, .f32⟩
  | .hbm, ⟨76, _⟩ => ⟨S16x8192x1, .f32⟩
  | .hbm, ⟨77, _⟩ => ⟨S16x8192x1, .f32⟩
  | .hbm, ⟨78, _⟩ => ⟨S16x8192x256, .f32⟩
  | .hbm, ⟨79, _⟩ => ⟨S16x8192x256, .f32⟩
  | .hbm, ⟨80, _⟩ => ⟨S_, .f32⟩
  | .hbm, ⟨81, _⟩ => ⟨S16x8192x1, .f32⟩
  | .hbm, ⟨82, _⟩ => ⟨S16x8192x1, .f32⟩
  | .hbm, ⟨83, _⟩ => ⟨S16x8192x1, .f32⟩
  | .hbm, ⟨84, _⟩ => ⟨S16x8192x256, .f32⟩
  | .hbm, ⟨85, _⟩ => ⟨S16x8192x256, .f32⟩
  | .hbm, ⟨86, _⟩ => ⟨S1x1x256, .f32⟩
  | .hbm, ⟨87, _⟩ => ⟨S16x8192x256, .f32⟩
  | .hbm, ⟨88, _⟩ => ⟨S16x8192x256, .f32⟩
  | .hbm, ⟨89, _⟩ => ⟨S1x1x256, .f32⟩
  | .hbm, ⟨90, _⟩ => ⟨S16x8192x256, .f32⟩
  | .hbm, ⟨91, _⟩ => ⟨S16x8192x256, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_call0_c : Ref sig .tc := ⟨.hbm, 16, rfl⟩
abbrev main_call0_call0_v0 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  bcast_S_S16x8192 : S_.BroadcastsInDim S16x8192 (![] : Fin 0 → Fin S16x8192.rank)
  bcast_S_S16x1 : S_.BroadcastsInDim S16x1 (![] : Fin 0 → Fin S16x1.rank)
  slices_S16x8192_S16x8191_0_0 : S16x8192.Slices ![0, 0] S16x8191
  concatenates_S16x1_S16x8191_S16x8192_d1 : Shape.Concatenates [S16x1, S16x8191] S16x8192 1
  natLt_1_32 : 1 < 32
  bcast_S_S_ : S_.BroadcastsInDim S_ (![] : Fin 0 → Fin S_.rank)
  reduceWindows_S16x8192_S16x8192_w1s1p0_0_w8192s1p8191_0 : S16x8192.ReduceWindows (![1, 8192] : Fin 2 → Nat) ![1, 1] ![0, 8191] ![0, 0] S16x8192
  h_S_ : 0 < S_.numel
  bcast_S16_S16x1_0 : S16.BroadcastsInDim S16x1 (![0] : Fin 1 → Fin S16x1.rank)
  bcast_S16x1_S16x8192_0_1 : S16x1.BroadcastsInDim S16x8192 (![0, 1] : Fin 2 → Fin S16x8192.rank)
  shapeCasts_S16x8192_S131072 : S16x8192.ShapeCasts S131072
  shapeCasts_S16x8192x256_S131072x256 : S16x8192x256.ShapeCasts S131072x256
  bcast_S_S131073x256 : S_.BroadcastsInDim S131073x256 (![] : Fin 0 → Fin S131073x256.rank)
  bcast_S131072_S131072x1_0 : S131072.BroadcastsInDim S131072x1 (![0] : Fin 1 → Fin S131072x1.rank)
  slices_S131073x256_S131072x256_0_0 : S131073x256.Slices ![0, 0] S131072x256
  bcast_S_S131072 : S_.BroadcastsInDim S131072 (![] : Fin 0 → Fin S131072.rank)
  bcast_S_S131073 : S_.BroadcastsInDim S131073 (![] : Fin 0 → Fin S131073.rank)
  slices_S131073_S131072_0 : S131073.Slices ![0] S131072
  shapeCasts_S131072x256_S16x8192x256 : S131072x256.ShapeCasts S16x8192x256
  shapeCasts_S131072_S16x8192 : S131072.ShapeCasts S16x8192
  bcast_S16x8192_S16x8192x1_0_1 : S16x8192.BroadcastsInDim S16x8192x1 (![0, 1] : Fin 2 → Fin S16x8192x1.rank)
  bcast_S16x8192x1_S16x8192x256_0_1_2 : S16x8192x1.BroadcastsInDim S16x8192x256 (![0, 1, 2] : Fin 3 → Fin S16x8192x256.rank)
  bcast_S256_S1x1x256_2 : S256.BroadcastsInDim S1x1x256 (![2] : Fin 1 → Fin S1x1x256.rank)
  bcast_S1x1x256_S16x8192x256_0_1_2 : S1x1x256.BroadcastsInDim S16x8192x256 (![0, 1, 2] : Fin 3 → Fin S16x8192x256.rank)
  reducesTo_S16x8192x256_S16x8192_d2 : S16x8192x256.ReducesTo [2] S16x8192
  bcast_S_S16x8192x1 : S_.BroadcastsInDim S16x8192x1 (![] : Fin 0 → Fin S16x8192x1.rank)
  scatter_S131073x256_S131072x1_S131072x256_1_0_0_1_wf : ScatterDims.WF S131073x256 S131072x1 S131072x256 [1] [0] [0] 1
  scatter_S131073_S131072x1_S131072_n_0_0_1_wf : ScatterDims.WF S131073 S131072x1 S131072 [] [0] [0] 1
  dot_S16x8192x256_S256x256_S16x8192x256_2_1_01_0_n_n_wf : DotDims.WF S16x8192x256 S256x256 S16x8192x256 [2] [1] [0, 1] [0] [] []

variable [Facts₀]

def scatter_S131073x256_S131072x1_S131072x256_1_0_0_1 : ScatterDims S131073x256 S131072x1 S131072x256 where
  updateWindowDims := [1]
  insertedWindowDims := [0]
  scatterDimsToOperandDims := [0]
  indexVectorDim := 1
  wf := scatter_S131073x256_S131072x1_S131072x256_1_0_0_1_wf
def scatter_S131073_S131072x1_S131072_n_0_0_1 : ScatterDims S131073 S131072x1 S131072 where
  updateWindowDims := []
  insertedWindowDims := [0]
  scatterDimsToOperandDims := [0]
  indexVectorDim := 1
  wf := scatter_S131073_S131072x1_S131072_n_0_0_1_wf
def dot_S16x8192x256_S256x256_S16x8192x256_2_1_01_0_n_n : DotDims S16x8192x256 S256x256 S16x8192x256 where
  lhsContracting := [2]
  rhsContracting := [1]
  lhsNonContracting := [0, 1]
  rhsNonContracting := [0]
  lhsBatch := []
  rhsBatch := []
  wf := dot_S16x8192x256_S256x256_S16x8192x256_2_1_01_0_n_n_wf

class Facts : Prop extends Facts₀ where

variable [Facts]
-- ==== Proof.RowSpec.lean ====
/-
  The row function both programs compute, on the extended reals.

  A row is the 256 pooled sums of one segment and that segment's token count. The row is divided by the
  count clamped below at one, projected by the weight matrix (entry e is the sum over d of the scaled
  row's entry d times W (e, d)) and shifted by the bias; the projected row is then normalised: its mean
  (the sum over the 256 entries divided by 256) is taken away, the result is multiplied by the reciprocal
  square root of the variance (the mean of the squared deviations) plus a small constant, scaled by gamma
  and shifted by beta. The float constants are kept as their binary words: the same words stand on both
  sides, so they are never evaluated. The mask is one where the count is positive and zero elsewhere.
-/
import Idealize.ShloMosaic.PureOps.Ideal
import Idealize.ShloMosaic.Lib.ValueIdx

noncomputable section

open scoped BigOperators

namespace Cert.RowSpec

open Idealize.ShloMosaic Idealize.ShloMosaic.ValueIdx

/-- The word of 1.0, the floor of the count. -/
abbrev one : EReal := Ideal.ofBits .f32 0x3F800000#32
/-- The word of 256.0, the row length the means divide by. -/
abbrev len : EReal := Ideal.ofBits .f32 0x43800000#32
/-- The word of the small constant added to the variance. -/
abbrev eps : EReal := Ideal.ofBits .f32 0x3727C5AC#32

/-- Entry `e` of the projected row: the row `s` over the clamped count, against row `e` of `W`, plus the bias. -/
def projRow (s : Fin 256 → EReal) (cnt : EReal) (W : (⟨2, ![256, 256]⟩ : Shape).Idx → EReal)
    (b : (⟨1, ![256]⟩ : Shape).Idx → EReal) (e : Fin 256) : EReal :=
  (∑ d : Fin 256, Ideal.div (s d) (max cnt one) * W (ix2 e d)) + b (ix1 e)

/-- The mean of a row of 256 entries. -/
def mean (v : Fin 256 → EReal) : EReal := Ideal.div (∑ e : Fin 256, v e) len

/-- Entry `e` of the normalised row: the deviation from the mean times the reciprocal square root of the
    variance plus the small constant. -/
def normRow (v : Fin 256 → EReal) (e : Fin 256) : EReal :=
  (v e - mean v) * Ideal.rsqrt (mean (fun e' => (v e' - mean v) * (v e' - mean v)) + eps)

/-- The output at segment `(p, q)`, channel `e`: entry `e` of the normalised projected row of the segment, scaled and shifted. -/
def outAt {A B : Nat} (S : (⟨3, ![A, B, 256]⟩ : Shape).Idx → EReal) (C : (⟨2, ![A, B]⟩ : Shape).Idx → EReal)
    (W : (⟨2, ![256, 256]⟩ : Shape).Idx → EReal) (b g be : (⟨1, ![256]⟩ : Shape).Idx → EReal)
    (p : Fin A) (q : Fin B) (e : Fin 256) : EReal :=
  normRow (projRow (fun d => S (ix3 p q d)) (C (ix2 p q)) W b) e * g (ix1 e) + be (ix1 e)

/-- The output array. -/
def out {A B : Nat} (S : (⟨3, ![A, B, 256]⟩ : Shape).Idx → EReal) (C : (⟨2, ![A, B]⟩ : Shape).Idx → EReal)
    (W : (⟨2, ![256, 256]⟩ : Shape).Idx → EReal) (b g be : (⟨1, ![256]⟩ : Shape).Idx → EReal) :
    (⟨3, ![A, B, 256]⟩ : Shape).Idx → EReal :=
  fun i => outAt S C W b g be (i 0) (i 1) (i 2)

theorem out_ix3 {A B : Nat} (S : (⟨3, ![A, B, 256]⟩ : Shape).Idx → EReal) (C : (⟨2, ![A, B]⟩ : Shape).Idx → EReal)
    (W : (⟨2, ![256, 256]⟩ : Shape).Idx → EReal) (b g be : (⟨1, ![256]⟩ : Shape).Idx → EReal) (p : Fin A) (q : Fin B) (e : Fin 256) :
    out S C W b g be (ix3 p q e) = outAt S C W b g be p q e := rfl

/-- The mask at segment `(p, q)`: one where the segment's count is positive, zero elsewhere. -/
def maskAt {A B : Nat} (C : (⟨2, ![A, B]⟩ : Shape).Idx → EReal) (p : Fin A) (q : Fin B) : EReal :=
  (((Ideal.cmp .ogt (C (ix2 p q)) (Ideal.ofBits .f32 0x00000000#32)).toNat : ℝ) : EReal)

/-- The mask array. -/
def mask {A B : Nat} (C : (⟨2, ![A, B]⟩ : Shape).Idx → EReal) : (⟨2, ![A, B]⟩ : Shape).Idx → EReal :=
  fun i => maskAt C (i 0) (i 1)

theorem mask_ix2 {A B : Nat} (C : (⟨2, ![A, B]⟩ : Shape).Idx → EReal) (p : Fin A) (q : Fin B) :
    mask C (ix2 p q) = maskAt C p q := rfl

/-- A one-bit word widened to 32 bits and read signed is the word read unsigned. -/
theorem bit_toInt (b : BitVec 1) : ((b.setWidth 32).toInt : ℝ) = (b.toNat : ℝ) := by
  have h : ∀ b : BitVec 1, (b.setWidth 32).toInt = (b.toNat : ℤ) := by decide
  rw [h b]; simp

end Cert.RowSpec

end
-- ==== Proof.LibScatterAdd.lean ====
/-
  The host's accumulating float scatter, for row scatters, read at an index on the extended reals.

  A ROW SCATTER has scatter indices of shape [N, 1] holding one row number each; that number names the
  operand's axis 0, which is inserted; the update's remaining axes (none, or one axis of C columns) go to the
  operand's remaining axes. Update row j then lands on operand row (I j), the index read signed, column for
  column, and is dropped when that row is outside the operand. On the extended reals the scatter-add is the
  operand plus the exact sum of the updates landing on each element, so

    result (r)    = Z (r)    + the sum over the update rows j with I j = r of U (j)        (no columns)
    result (r, c) = Z (r, c) + the sum over the update rows j with I j = r of U (j, c)     (C columns)

  for any sizes R (operand rows), N (update rows), C (columns) and any index width. The lemmas are stated for
  the dimension numbers as a record built from any proof of their well-formedness (`dims1 wf`, `dims2 wf`); a
  program's own record of the same four lists is that record, so they apply to it by unification.
-/
import Idealize.ShloMosaic.Lib.ValueIdx
import Idealize.ShloMosaic.Lib.IdealHost
import Idealize.ShloMosaic.Lib.Pipeline.Value
import Idealize.ShloMosaic.PureOps.Contract

noncomputable section

open scoped BigOperators

namespace Cert.ScatterRows

open Idealize.ShloMosaic Idealize.ShloMosaic.ValueIdx

theorem coord_val_congr {s : Shape} (j : s.Idx) {a b : Fin s.rank} (h : a = b) : (j a).val = (j b).val := by
  subst h; rfl

section rank1
variable {R N w : Nat}

/-- The 1-D scatter's dimension numbers, over any sizes. -/
abbrev dims1 (wf : ScatterDims.WF ⟨1, ![R]⟩ ⟨2, ![N, 1]⟩ ⟨1, ![N]⟩ [] [0] [0] 1) :
    ScatterDims ⟨1, ![R]⟩ ⟨2, ![N, 1]⟩ ⟨1, ![N]⟩ := ⟨[], [0], [0], 1, wf⟩

theorem start1 (wf) (a : Fin N) (I : IVec ⟨2, ![N, 1]⟩ w) :
    (dims1 (R := R) wf).start (ix1 a) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix1 a) rfl
  | ⟨1, _⟩ =>
    apply Fin.ext
    simp [ScatterDims.siIdx]

theorem window1 (wf) (j : (⟨1, ![N]⟩ : Shape).Idx) :
    (dims1 (R := R) wf).window j 0 = 0 := by
  unfold ScatterDims.window
  rw [dif_neg (by simp [Shape.kept])]

theorem resultIdx1 (wf) (a : Fin N) (I : IVec ⟨2, ![N, 1]⟩ w) (r : Fin R) :
    (dims1 (R := R) wf).resultIdx? (ix1 a) I = some (ix1 r) ↔ (I (ix2 a 0)).toInt = (r.val : ℤ) := by
  unfold ScatterDims.resultIdx?
  constructor
  · intro h
    split at h
    · rename_i hh
      have h0 := congrFun (Option.some.inj h) 0
      have h1 := congrArg Fin.val h0
      have h2 := hh 0
      rw [start1, window1] at h2
      change ((dims1 (R := R) wf).start (ix1 a) I 0 + ((dims1 (R := R) wf).window (ix1 a) 0 : ℤ)).toNat = r.val at h1
      rw [start1, window1] at h1
      omega
    · exact absurd h (by simp)
  · intro h
    have hh : ∀ b, 0 ≤ (dims1 (R := R) wf).start (ix1 a) I b + ((dims1 (R := R) wf).window (ix1 a) b : ℤ)
        ∧ (dims1 (R := R) wf).start (ix1 a) I b + ((dims1 (R := R) wf).window (ix1 a) b : ℤ)
          < ((⟨1, ![R]⟩ : Shape).size b : ℤ) := by
      intro b
      match b with
      | ⟨0, _⟩ =>
        have := r.isLt
        change _ ∧ (dims1 (R := R) wf).start (ix1 a) I 0 + ((dims1 (R := R) wf).window (ix1 a) 0 : ℤ) < (R : ℤ)
        change 0 ≤ (dims1 (R := R) wf).start (ix1 a) I 0 + ((dims1 (R := R) wf).window (ix1 a) 0 : ℤ) ∧ _
        rw [start1, window1, h]
        omega
    rw [dif_pos hh]
    congr 1
    funext b
    match b with
    | ⟨0, _⟩ =>
      apply Fin.ext
      change ((dims1 (R := R) wf).start (ix1 a) I 0 + ((dims1 (R := R) wf).window (ix1 a) 0 : ℤ)).toNat = r.val
      rw [start1, window1, h]
      omega

end rank1

section rank1sum
variable {R N w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem scatterAdd1_apply (wf) (Z : (⟨1, ![R]⟩ : Shape).Idx → EReal) (I : IVec ⟨2, ![N, 1]⟩ w)
    (U : (⟨1, ![N]⟩ : Shape).Idx → EReal) (r : Fin R) :
    Ideal.hostScatterAdd (dims1 (R := R) wf) Z I U (ix1 r)
      = Z (ix1 r) + ∑ a : Fin N, if (I (ix2 a 0)).toInt = (r.val : ℤ) then U (ix1 a) else 0 := by
  unfold Ideal.hostScatterAdd
  rw [Finset.sum_filter, sum_idx1]
  congr 1
  apply Finset.sum_congr rfl
  intro a _
  exact if_congr (resultIdx1 wf a I r) rfl rfl

end rank1sum

section rank2
variable {R N C w : Nat}

/-- The row scatter's dimension numbers, over any sizes: the update's rows go to the operand's rows
    the indices name, its columns to the same columns. -/
abbrev dims2 (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ := ⟨[1], [0], [0], 1, wf⟩

theorem start2_0 (wf) (a : Fin N) (c : Fin C) (I : IVec ⟨2, ![N, 1]⟩ w) :
    (dims2 (R := R) wf).start (ix2 a c) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix2 a c) rfl
  | ⟨1, _⟩ =>
    apply Fin.ext
    simp [ScatterDims.siIdx]

theorem start2_1 (wf) (j : (⟨2, ![N, C]⟩ : Shape).Idx) (I : IVec ⟨2, ![N, 1]⟩ w) :
    (dims2 (R := R) wf).start j I 1 = 0 := by
  unfold ScatterDims.start
  rw [dif_neg (by simp)]

theorem window2_0 (wf) (j : (⟨2, ![N, C]⟩ : Shape).Idx) :
    (dims2 (R := R) wf).window j 0 = 0 := by
  unfold ScatterDims.window
  rw [dif_neg (by simp [Shape.kept])]

theorem window2_1 (wf) (a : Fin N) (c : Fin C) :
    (dims2 (R := R) wf).window (ix2 a c) 1 = c.val := by
  unfold ScatterDims.window
  rw [dif_pos (by simp [Shape.kept])]
  exact coord_val_congr (ix2 a c) rfl

end rank2

section rank2sum
variable {R N C w : Nat}

theorem resultIdx2 (wf) (a : Fin N) (c : Fin C) (I : IVec ⟨2, ![N, 1]⟩ w) (r : Fin R) (c' : Fin C) :
    (dims2 (R := R) wf).resultIdx? (ix2 a c) I = some (ix2 r c')
      ↔ (I (ix2 a 0)).toInt = (r.val : ℤ) ∧ c = c' := by
  unfold ScatterDims.resultIdx?
  constructor
  · intro h
    split at h
    · rename_i hh
      have e := Option.some.inj h
      have h0 := congrArg Fin.val (congrFun e 0)
      have h1 := congrArg Fin.val (congrFun e 1)
      have g0 := hh 0
      rw [start2_0, window2_0] at g0
      change ((dims2 (R := R) wf).start (ix2 a c) I 0 + ((dims2 (R := R) wf).window (ix2 a c) 0 : ℤ)).toNat = r.val at h0
      change ((dims2 (R := R) wf).start (ix2 a c) I 1 + ((dims2 (R := R) wf).window (ix2 a c) 1 : ℤ)).toNat = c'.val at h1
      rw [start2_0, window2_0] at h0
      rw [start2_1, window2_1] at h1
      refine ⟨by omega, Fin.ext (by omega)⟩
    · exact absurd h (by simp)
  · rintro ⟨h, rfl⟩
    have hh : ∀ b, 0 ≤ (dims2 (R := R) wf).start (ix2 a c) I b + ((dims2 (R := R) wf).window (ix2 a c) b : ℤ)
        ∧ (dims2 (R := R) wf).start (ix2 a c) I b + ((dims2 (R := R) wf).window (ix2 a c) b : ℤ)
          < ((⟨2, ![R, C]⟩ : Shape).size b : ℤ) := by
      intro b
      match b with
      | ⟨0, _⟩ =>
        have := r.isLt
        change _ ∧ (dims2 (R := R) wf).start (ix2 a c) I 0 + ((dims2 (R := R) wf).window (ix2 a c) 0 : ℤ) < (R : ℤ)
        change 0 ≤ (dims2 (R := R) wf).start (ix2 a c) I 0 + ((dims2 (R := R) wf).window (ix2 a c) 0 : ℤ) ∧ _
        rw [start2_0, window2_0, h]
        omega
      | ⟨1, _⟩ =>
        have := c.isLt
        change _ ∧ (dims2 (R := R) wf).start (ix2 a c) I 1 + ((dims2 (R := R) wf).window (ix2 a c) 1 : ℤ) < (C : ℤ)
        change 0 ≤ (dims2 (R := R) wf).start (ix2 a c) I 1 + ((dims2 (R := R) wf).window (ix2 a c) 1 : ℤ) ∧ _
        rw [start2_1, window2_1]
        omega
    rw [dif_pos hh]
    congr 1
    funext b
    match b with
    | ⟨0, _⟩ =>
      apply Fin.ext
      change ((dims2 (R := R) wf).start (ix2 a c) I 0 + ((dims2 (R := R) wf).window (ix2 a c) 0 : ℤ)).toNat = r.val
      rw [start2_0, window2_0, h]
      omega
    | ⟨1, _⟩ =>
      apply Fin.ext
      change ((dims2 (R := R) wf).start (ix2 a c) I 1 + ((dims2 (R := R) wf).window (ix2 a c) 1 : ℤ)).toNat = c.val
      rw [start2_1, window2_1]
      omega

/-- Of a row of terms, the ones at one column under a condition that does not depend on the column. -/
theorem sum_and_eq (p : Prop) [Decidable p] (c : Fin C) (f : Fin C → EReal) :
    ∑ c' : Fin C, (if p ∧ c' = c then f c' else 0) = if p then f c else 0 := by
  by_cases hp : p
  · simp [hp]
  · simp [hp]

theorem scatterAdd2_apply (wf) (Z : (⟨2, ![R, C]⟩ : Shape).Idx → EReal) (I : IVec ⟨2, ![N, 1]⟩ w)
    (U : (⟨2, ![N, C]⟩ : Shape).Idx → EReal) (r : Fin R) (c : Fin C) :
    Ideal.hostScatterAdd (dims2 (R := R) wf) Z I U (ix2 r c)
      = Z (ix2 r c) + ∑ a : Fin N, if (I (ix2 a 0)).toInt = (r.val : ℤ) then U (ix2 a c) else 0 := by
  unfold Ideal.hostScatterAdd
  rw [Finset.sum_filter, sum_idx2]
  congr 1
  apply Finset.sum_congr rfl
  intro a _
  rw [← sum_and_eq ((I (ix2 a 0)).toInt = (r.val : ℤ)) c (fun c' => U (ix2 a c'))]
  apply Finset.sum_congr rfl
  intro c' _
  exact if_congr (resultIdx2 wf a c' I r c) rfl rfl

end rank2sum

end Cert.ScatterRows

end
-- ==== Proof.ScatterRows.lean ====
/-
  The host's accumulating float scatter read at an index, at the ideal instance (a float an extended real),
  for the row scatters whose dimension numbers are: scatter indices of shape [N, 1] holding one row number
  each, that row number naming the operand's axis 0, axis 0 inserted, the update's remaining axes (none, or
  one axis of columns) going to the operand's remaining axes.

  For such a scatter update row j lands on operand row (I j) read signed, column for column, and is dropped
  when that row is outside the operand. So the result at row r, column c is the operand's entry plus the sum
  over the update rows j with I j = r of the update's entry at (j, c). The consequence drawn at the end:
  scattering the 257-column rows [x | 1] gives, in its first 256 columns, what scattering the 256-column
  rows x gives, and in its last column what scattering ones gives.
-/
import proofs.«155131_j13529146983189_2_alg».proof.Proof.Gen.KernelIdeal
import proofs.«155131_j13529146983189_2_alg».proof.Proof.Gen.ReferenceIdeal
import proofs.«155131_j13529146983189_2_alg».proof.Proof.LibScatterAdd
import Idealize.ShloMosaic.Lib.ValueIdx
import Idealize.ShloMosaic.Lib.IdealHost
import Idealize.ShloMosaic.Lib.Pipeline.Value
import Idealize.ShloMosaic.PureOps.Contract

noncomputable section

open scoped BigOperators

namespace Cert.ScatterRows

open Idealize.ShloMosaic Idealize.ShloMosaic.ValueIdx

section concrete

theorem scatterK_apply (Z : FVec Ideal Cert.KernelIdeal.S131073x257 .f32) (I : IVec Cert.KernelIdeal.S131072x1 32)
    (U : FVec Ideal Cert.KernelIdeal.S131072x257 .f32) (r : Fin 131073) (c : Fin 257) :
    (Host.scatterAdd (F := Ideal) Cert.KernelIdeal.scatter_S131073x257_S131072x1_S131072x257_1_0_0_1 Z I U) (ix2 r c)
      = Z (ix2 r c) + ∑ j : Fin 131072, if (I (ix2 j 0)).toInt = (r : ℤ) then U (ix2 j c) else 0 :=
  scatterAdd2_apply _ Z I U r c

theorem scatterR2_apply (Z : FVec Ideal Cert.ReferenceIdeal.S131073x256 .f32) (I : IVec Cert.ReferenceIdeal.S131072x1 32)
    (U : FVec Ideal Cert.ReferenceIdeal.S131072x256 .f32) (r : Fin 131073) (c : Fin 256) :
    (Host.scatterAdd (F := Ideal) Cert.ReferenceIdeal.scatter_S131073x256_S131072x1_S131072x256_1_0_0_1 Z I U) (ix2 r c)
      = Z (ix2 r c) + ∑ j : Fin 131072, if (I (ix2 j 0)).toInt = (r : ℤ) then U (ix2 j c) else 0 :=
  scatterAdd2_apply _ Z I U r c

theorem scatterR1_apply (Z : FVec Ideal Cert.ReferenceIdeal.S131073 .f32) (I : IVec Cert.ReferenceIdeal.S131072x1 32)
    (U : FVec Ideal Cert.ReferenceIdeal.S131072 .f32) (r : Fin 131073) :
    (Host.scatterAdd (F := Ideal) Cert.ReferenceIdeal.scatter_S131073_S131072x1_S131072_n_0_0_1 Z I U) (ix1 r)
      = Z (ix1 r) + ∑ j : Fin 131072, if (I (ix2 j 0)).toInt = (r : ℤ) then U (ix1 j) else 0 :=
  scatterAdd1_apply _ Z I U r

end concrete

/-! ## The two programs' scatter chains

The kernel program appends a column of ones to the 256-column rows, scatters the 257-column rows once, and
cuts the result into its first 256 columns (the per-segment sums) and its last column (the per-segment
counts). The reference scatters the 256-column rows and, separately, a vector of ones. -/

section kernelSide
open Cert.KernelIdeal Cert.KernelIdeal.Facts₀

/-- The kernel program's update: the rows of x, each with a one appended, as 131072 rows of 257. -/
def kAug (x : FVec Ideal S16x8192x256 .f32) : FVec Ideal S131072x257 .f32 :=
  shapeCast S131072x257
    (concatenate S16x8192x257 2
      [⟨S16x8192x256, x⟩,
       ⟨S16x8192x1, broadcastInDim S16x8192x1 ![] bcast_S_S16x8192x1 (constant (F := Ideal) S_ .f32 0x3F800000#32)⟩]
      concatenates_S16x8192x256_S16x8192x1_S16x8192x257_d2)
    shapeCasts_S16x8192x257_S131072x257

/-- The kernel program's scatter of those rows into 131073 rows of zeros, the last row cut off, as 16 × 8192 rows. -/
def kScat (x : FVec Ideal S16x8192x256 .f32) (fl : IVec S131072 32) : FVec Ideal S16x8192x257 .f32 :=
  shapeCast S16x8192x257
    (extractStridedSlice S131072x257 ![0, 0]
      (Host.scatterAdd scatter_S131073x257_S131072x1_S131072x257_1_0_0_1
        (broadcastInDim S131073x257 ![] bcast_S_S131073x257 (constant (F := Ideal) S_ .f32 0x00000000#32))
        (broadcastInDim S131072x1 ![0] bcast_S131072_S131072x1_0 fl)
        (kAug x))
      slices_S131073x257_S131072x257_0_0)
    shapeCasts_S131072x257_S16x8192x257

/-- Its first 256 columns. -/
def kSums (x : FVec Ideal S16x8192x256 .f32) (fl : IVec S131072 32) : FVec Ideal S16x8192x256 .f32 :=
  extractStridedSlice S16x8192x256 ![0, 0, 0] (kScat x fl) slices_S16x8192x257_S16x8192x256_0_0_0

/-- Its last column. -/
def kCounts (x : FVec Ideal S16x8192x256 .f32) (fl : IVec S131072 32) : FVec Ideal S16x8192 .f32 :=
  shapeCast S16x8192
    (extractStridedSlice S16x8192x1 ![0, 0, 256] (kScat x fl) slices_S16x8192x257_S16x8192x1_0_0_256)
    shapeCasts_S16x8192x1_S16x8192

end kernelSide

section referenceSide
open Cert.ReferenceIdeal Cert.ReferenceIdeal.Facts₀

/-- The reference's scatter of the 256-column rows. -/
def rSums (x : FVec Ideal S16x8192x256 .f32) (fl : IVec S131072 32) : FVec Ideal S16x8192x256 .f32 :=
  shapeCast S16x8192x256
    (extractStridedSlice S131072x256 ![0, 0]
      (Host.scatterAdd scatter_S131073x256_S131072x1_S131072x256_1_0_0_1
        (broadcastInDim S131073x256 ![] bcast_S_S131073x256 (constant (F := Ideal) S_ .f32 0x00000000#32))
        (broadcastInDim S131072x1 ![0] bcast_S131072_S131072x1_0 fl)
        (shapeCast S131072x256 x shapeCasts_S16x8192x256_S131072x256))
      slices_S131073x256_S131072x256_0_0)
    shapeCasts_S131072x256_S16x8192x256

/-- The reference's scatter of ones. -/
def rCounts (fl : IVec S131072 32) : FVec Ideal S16x8192 .f32 :=
  shapeCast S16x8192
    (extractStridedSlice S131072 ![0]
      (Host.scatterAdd scatter_S131073_S131072x1_S131072_n_0_0_1
        (broadcastInDim S131073 ![] bcast_S_S131073 (constant (F := Ideal) S_ .f32 0x00000000#32))
        (broadcastInDim S131072x1 ![0] bcast_S131072_S131072x1_0 fl)
        (broadcastInDim S131072 ![] bcast_S_S131072 (constant (F := Ideal) S_ .f32 0x3F800000#32)))
      slices_S131073_S131072_0)
    shapeCasts_S131072_S16x8192

end referenceSide

/-! ## Rows and their two coordinates -/

/-- Row p·8192 + q of the 131073-row operand. -/
def rowOf (p : Fin 16) (q : Fin 8192) : Fin 131073 := ⟨p.val * 8192 + q.val, by omega⟩
/-- Row p·8192 + q of the 131072 update rows. -/
def rowIn (p : Fin 16) (q : Fin 8192) : Fin 131072 := ⟨p.val * 8192 + q.val, by omega⟩
/-- An update row's first coordinate among 16 × 8192. -/
def hiOf (j : Fin 131072) : Fin 16 := ⟨j.val / 8192, by omega⟩
/-- An update row's second coordinate among 16 × 8192. -/
def loOf (j : Fin 131072) : Fin 8192 := ⟨j.val % 8192, by omega⟩

section kernelReads
open Cert.KernelIdeal Cert.KernelIdeal.Facts₀

/-- The scatter indices, one per row, read at a row. -/
theorem kIdx_apply (fl : IVec S131072 32) (j : Fin 131072) :
    broadcastInDim S131072x1 ![0] bcast_S131072_S131072x1_0 fl (ix2 j 0) = fl (ix1 j) := by
  refine broadcastInDim_apply _ _ fl (ix2 j 0) (ix1 j) ?_
  intro a
  match a with
  | ⟨0, _⟩ =>
    show j.val = if (131072 : ℕ) = 1 then 0 else j.val
    rw [if_neg (by decide)]

/-- The kernel's update in one of its first 256 columns is x's entry. -/
theorem kAug_apply_left (x : FVec Ideal S16x8192x256 .f32) (j : Fin 131072) (e : Fin 256) :
    kAug x (ix2 j (⟨e.val, by omega⟩ : Fin 257)) = x (ix3 (hiOf j) (loOf j) e) := by
  unfold kAug
  refine (shapeCast_apply _ _ (ix2 j (⟨e.val, by omega⟩ : Fin 257)) (ix3 (hiOf j) (loOf j) (⟨e.val, by omega⟩ : Fin 257)) ?_).trans ?_
  · rw [Shape.rowMajor_val_two, Shape.rowMajor_val_three]
    show ((j.val / 8192) * 8192 + j.val % 8192) * 257 + e.val = j.val * 257 + e.val
    omega
  refine concatenate_pair_apply_left (t := S16x8192x257) (s₁ := S16x8192x256) (s₂ := S16x8192x1) 2 x _
    concatenates_S16x8192x256_S16x8192x1_S16x8192x257_d2 _ rfl (ix3 (hiOf j) (loOf j) e) ?_
  intro b
  match b with
  | ⟨0, _⟩ => rfl
  | ⟨1, _⟩ => rfl
  | ⟨2, _⟩ => rfl

/-- The kernel's update in its last column is the constant one. -/
theorem kAug_apply_last (x : FVec Ideal S16x8192x256 .f32) (j : Fin 131072) :
    kAug x (ix2 j (⟨256, by omega⟩ : Fin 257)) = Ideal.ofBits .f32 0x3F800000#32 := by
  unfold kAug
  refine (shapeCast_apply _ _ (ix2 j (⟨256, by omega⟩ : Fin 257)) (ix3 (hiOf j) (loOf j) (⟨256, by omega⟩ : Fin 257)) ?_).trans ?_
  · rw [Shape.rowMajor_val_two, Shape.rowMajor_val_three]
    show ((j.val / 8192) * 8192 + j.val % 8192) * 257 + 256 = j.val * 257 + 256
    omega
  refine (concatenate_pair_apply_right (t := S16x8192x257) (s₁ := S16x8192x256) (s₂ := S16x8192x1) 2 x _
    concatenates_S16x8192x256_S16x8192x1_S16x8192x257_d2 _ rfl rfl (ix3 (hiOf j) (loOf j) (0 : Fin 1)) ?_ ?_).trans ?_
  · intro b hb
    match b with
    | ⟨0, _⟩ => rfl
    | ⟨1, _⟩ => rfl
    | ⟨2, _⟩ => exact absurd rfl hb
  · rfl
  · exact broadcastInDim_scalar_apply _ _ _

/-- The kernel's scattered array at a row and a column. -/
theorem kScat_apply (x : FVec Ideal S16x8192x256 .f32) (fl : IVec S131072 32) (p : Fin 16) (q : Fin 8192) (c : Fin 257) :
    kScat x fl (ix3 p q c) = Ideal.ofBits .f32 0x00000000#32
      + ∑ j : Fin 131072, if (fl (ix1 j)).toInt = ((rowOf p q : Fin 131073) : ℤ) then kAug x (ix2 j c) else 0 := by
  unfold kScat
  refine (shapeCast_apply _ _ (ix3 p q c) (ix2 (rowIn p q) c) ?_).trans ?_
  · rw [Shape.rowMajor_val_two, Shape.rowMajor_val_three]
    rfl
  refine (extractStridedSlice_apply _ _ _ (ix2 (rowIn p q) c) (ix2 (rowOf p q) c) ?_).trans ?_
  · intro a
    match a with
    | ⟨0, _⟩ => exact (Nat.zero_add _).symm
    | ⟨1, _⟩ => exact (Nat.zero_add _).symm
  rw [scatterK_apply]
  refine congrArg₂ (· + ·) ?_ ?_
  · exact broadcastInDim_scalar_apply _ _ _
  · apply Finset.sum_congr rfl
    intro j _
    rw [kIdx_apply]

/-- The kernel's per-segment sums at a row and one of the 256 columns. -/
theorem kSums_apply (x : FVec Ideal S16x8192x256 .f32) (fl : IVec S131072 32) (p : Fin 16) (q : Fin 8192) (e : Fin 256) :
    kSums x fl (ix3 p q e) = Ideal.ofBits .f32 0x00000000#32
      + ∑ j : Fin 131072, if (fl (ix1 j)).toInt = ((rowOf p q : Fin 131073) : ℤ) then x (ix3 (hiOf j) (loOf j) e) else 0 := by
  unfold kSums
  refine (extractStridedSlice_apply _ _ _ (ix3 p q e) (ix3 p q (⟨e.val, by omega⟩ : Fin 257)) ?_).trans ?_
  · intro a
    match a with
    | ⟨0, _⟩ => exact (Nat.zero_add _).symm
    | ⟨1, _⟩ => exact (Nat.zero_add _).symm
    | ⟨2, _⟩ => exact (Nat.zero_add _).symm
  rw [kScat_apply]
  refine congrArg₂ (· + ·) rfl ?_
  apply Finset.sum_congr rfl
  intro j _
  rw [kAug_apply_left]

/-- The kernel's per-segment counts at a row. -/
theorem kCounts_apply (x : FVec Ideal S16x8192x256 .f32) (fl : IVec S131072 32) (p : Fin 16) (q : Fin 8192) :
    kCounts x fl (ix2 p q) = Ideal.ofBits .f32 0x00000000#32
      + ∑ j : Fin 131072, if (fl (ix1 j)).toInt = ((rowOf p q : Fin 131073) : ℤ) then Ideal.ofBits .f32 0x3F800000#32 else 0 := by
  unfold kCounts
  refine (shapeCast_apply _ _ (ix2 p q) (ix3 p q (0 : Fin 1)) ?_).trans ?_
  · rw [Shape.rowMajor_val_two, Shape.rowMajor_val_three]
    show (p.val * 8192 + q.val) * 1 + 0 = p.val * 8192 + q.val
    omega
  refine (extractStridedSlice_apply _ _ _ (ix3 p q (0 : Fin 1)) (ix3 p q (⟨256, by omega⟩ : Fin 257)) ?_).trans ?_
  · intro a
    match a with
    | ⟨0, _⟩ => exact (Nat.zero_add _).symm
    | ⟨1, _⟩ => exact (Nat.zero_add _).symm
    | ⟨2, _⟩ => rfl
  rw [kScat_apply]
  refine congrArg₂ (· + ·) rfl ?_
  apply Finset.sum_congr rfl
  intro j _
  rw [kAug_apply_last]

end kernelReads

section referenceReads
open Cert.ReferenceIdeal Cert.ReferenceIdeal.Facts₀

/-- The scatter indices, one per row, read at a row. -/
theorem rIdx_apply (fl : IVec S131072 32) (j : Fin 131072) :
    broadcastInDim S131072x1 ![0] bcast_S131072_S131072x1_0 fl (ix2 j 0) = fl (ix1 j) := by
  refine broadcastInDim_apply _ _ fl (ix2 j 0) (ix1 j) ?_
  intro a
  match a with
  | ⟨0, _⟩ =>
    show j.val = if (131072 : ℕ) = 1 then 0 else j.val
    rw [if_neg (by decide)]

/-- The reference's update, x as 131072 rows of 256, at a row and a column. -/
theorem rUpd_apply (x : FVec Ideal S16x8192x256 .f32) (j : Fin 131072) (e : Fin 256) :
    shapeCast S131072x256 x shapeCasts_S16x8192x256_S131072x256 (ix2 j e) = x (ix3 (hiOf j) (loOf j) e) := by
  refine shapeCast_apply _ _ (ix2 j e) (ix3 (hiOf j) (loOf j) e) ?_
  rw [Shape.rowMajor_val_two, Shape.rowMajor_val_three]
  show ((j.val / 8192) * 8192 + j.val % 8192) * 256 + e.val = j.val * 256 + e.val
  omega

/-- The reference's per-segment sums at a row and a column. -/
theorem rSums_apply (x : FVec Ideal S16x8192x256 .f32) (fl : IVec S131072 32) (p : Fin 16) (q : Fin 8192) (e : Fin 256) :
    rSums x fl (ix3 p q e) = Ideal.ofBits .f32 0x00000000#32
      + ∑ j : Fin 131072, if (fl (ix1 j)).toInt = ((rowOf p q : Fin 131073) : ℤ) then x (ix3 (hiOf j) (loOf j) e) else 0 := by
  unfold rSums
  refine (shapeCast_apply _ _ (ix3 p q e) (ix2 (rowIn p q) e) ?_).trans ?_
  · rw [Shape.rowMajor_val_two, Shape.rowMajor_val_three]
    rfl
  refine (extractStridedSlice_apply _ _ _ (ix2 (rowIn p q) e) (ix2 (rowOf p q) e) ?_).trans ?_
  · intro a
    match a with
    | ⟨0, _⟩ => exact (Nat.zero_add _).symm
    | ⟨1, _⟩ => exact (Nat.zero_add _).symm
  rw [scatterR2_apply]
  refine congrArg₂ (· + ·) ?_ ?_
  · exact broadcastInDim_scalar_apply _ _ _
  · apply Finset.sum_congr rfl
    intro j _
    rw [rIdx_apply, rUpd_apply]

/-- The reference's per-segment counts at a row. -/
theorem rCounts_apply (fl : IVec S131072 32) (p : Fin 16) (q : Fin 8192) :
    rCounts fl (ix2 p q) = Ideal.ofBits .f32 0x00000000#32
      + ∑ j : Fin 131072, if (fl (ix1 j)).toInt = ((rowOf p q : Fin 131073) : ℤ) then Ideal.ofBits .f32 0x3F800000#32 else 0 := by
  unfold rCounts
  refine (shapeCast_apply _ _ (ix2 p q) (ix1 (rowIn p q)) ?_).trans ?_
  · rw [Shape.rowMajor_val_one, Shape.rowMajor_val_two]
    rfl
  refine (extractStridedSlice_apply _ _ _ (ix1 (rowIn p q)) (ix1 (rowOf p q)) ?_).trans ?_
  · intro a
    match a with
    | ⟨0, _⟩ => exact (Nat.zero_add _).symm
  rw [scatterR1_apply]
  refine congrArg₂ (· + ·) ?_ ?_
  · exact broadcastInDim_scalar_apply _ _ _
  · apply Finset.sum_congr rfl
    intro j _
    rw [rIdx_apply]
    refine if_congr Iff.rfl ?_ rfl
    exact broadcastInDim_scalar_apply _ _ _

end referenceReads

/-! ## The consequence -/

/-- One scatter of the rows [x | 1] gives, in its first 256 columns, the scatter of the rows x. -/
theorem sums_eq (x : FVec Ideal Cert.KernelIdeal.S16x8192x256 .f32) (fl : IVec Cert.KernelIdeal.S131072 32) :
    kSums x fl = rSums x fl := by
  funext i
  obtain ⟨p, q, e, rfl⟩ : ∃ (p : Fin 16) (q : Fin 8192) (e : Fin 256), i = ix3 p q e := ⟨i 0, i 1, i 2, eq_ix3 i⟩
  exact (kSums_apply x fl p q e).trans (rSums_apply x fl p q e).symm

/-- … and, in its last column, the scatter of ones. -/
theorem counts_eq (x : FVec Ideal Cert.KernelIdeal.S16x8192x256 .f32) (fl : IVec Cert.KernelIdeal.S131072 32) :
    kCounts x fl = rCounts fl := by
  funext i
  obtain ⟨p, q, rfl⟩ : ∃ (p : Fin 16) (q : Fin 8192), i = ix2 p q := ⟨i 0, i 1, eq_ix2 i⟩
  exact (kCounts_apply x fl p q).trans (rCounts_apply fl p q).symm

end Cert.ScatterRows
-- ==== Proof.KernelHost.lean ====
/-
  What the region finds in its first two windows' arrays.

  Before the kernel is launched the program computes, on the host, a flat segment id for every token (the
  running count of segment starts along each row, less one, plus 8192 times the row; boundary tokens are
  sent one past the last segment), appends a column of ones to the input, scatter-adds the 257-column rows
  into 131073 rows of zeros under those ids, drops the overflow row, and splits the result into its first
  256 columns (the per-segment sums) and its last column (the per-segment counts). Read back from the
  straight line of operations, the two arrays the kernel's windows stage are exactly those two terms of
  the program's arguments.
-/
import proofs.«155131_j13529146983189_2_alg».proof.Proof.Gen.KernelIdeal.Frame
import proofs.«155131_j13529146983189_2_alg».proof.Proof.ScatterRows
import Idealize.ShloMosaic.Lib.StableHlo.Run

noncomputable section

namespace Cert.KernelHost

open Cert.KernelIdeal Cert.KernelIdeal.Facts₀ Idealize.ShloMosaic Idealize.ShloMosaic.TcCoe Idealize.SL.Sem
open Idealize.ShloMosaic.StableHlo

/-- Where a token is a boundary: its id is zero. -/
def isBoundary (ids : IVec S16x8192 32) : IVec S16x8192 1 :=
  cmpi .eq ids (broadcastInDim S16x8192 ![] bcast_S_S16x8192 (constantI S_ 32 0#32))

/-- Where a segment starts: at a token that is no boundary and is the first of its row or follows a boundary. -/
def segStart (ids : IVec S16x8192 32) : IVec S16x8192 1 :=
  andi (noti (isBoundary ids))
    (concatenate S16x8192 1
      [⟨S16x1, broadcastInDim S16x1 ![] bcast_S_S16x1 (constantI S_ 1 1#1)⟩,
       ⟨S16x8191, extractStridedSlice S16x8191 ![0, 0] (isBoundary ids) slices_S16x8192_S16x8191_0_0⟩]
      concatenates_S16x1_S16x8191_S16x8192_d1)

/-- The flat segment id of every token, row-major: for a token that is no boundary, 8192 times its row plus the number of
    segment starts in its row up to and including it, less one; for a boundary token 131072, one past the last segment. -/
def flatIds (ids : IVec S16x8192 32) : IVec S131072 32 :=
  shapeCast S131072
    (select (noti (isBoundary ids))
      (addi
        (subi
          (Host.reduceWindow IntOp.addi ![1, 8192] ![1, 1] ![0, 8191] ![0, 0] (extui 32 (segStart ids) natLt_1_32)
            (broadcastInDim S_ ![] bcast_S_S_ (constantI S_ 32 0#32))
            reduceWindows_S16x8192_S16x8192_w1s1p0_0_w8192s1p8191_0 h_S_)
          (broadcastInDim S16x8192 ![] bcast_S_S16x8192 (constantI S_ 32 1#32)))
        (broadcastInDim S16x8192 ![0, 1] bcast_S16x1_S16x8192_0_1
          (muli (broadcastInDim S16x1 ![0] bcast_S16_S16x1_0 (iotaInDim S16 32 0))
            (broadcastInDim S16x1 ![] bcast_S_S16x1 (constantI S_ 32 8192#32)))))
      (broadcastInDim S16x8192 ![] bcast_S_S16x8192 (constantI S_ 32 131072#32)))
    shapeCasts_S16x8192_S131072

variable (m : (ℓ : Loc nD τ sig) → Buf (Elt Ideal) ℓ)

attribute [local irreducible] Host.scatterAdd Host.reduceWindow concatenate in
set_option maxRecDepth 8192 in
set_option maxHeartbeats 4000000 in
/-- When the region is entered the first window's array holds the per-segment sums of the input under the flat ids. -/
theorem V_sums (c : Dev nD) :
    (Gen.V m c main_v27 : S16x8192x256.Idx → EReal)
      = ScatterRows.kSums (m ((c : Thread nD τ).loc main_arg0)) (flatIds (m ((c : Thread nD τ).loc main_arg1))) := by
  dsimp only [Gen.V]
  simp only [Gen.hostOps0, Gen.hostOps0_1, Gen.hostOps0_2, Gen.hostOps0_3, Gen.hostOps0_4, List.flatten_cons, List.flatten_nil, List.append_nil,
    List.cons_append, List.nil_append]
  after_results_simp
  rfl

attribute [local irreducible] Host.scatterAdd Host.reduceWindow concatenate in
set_option maxRecDepth 8192 in
set_option maxHeartbeats 4000000 in
/-- … and the second window's array the per-segment counts. -/
theorem V_counts (c : Dev nD) :
    (Gen.V m c main_v29 : S16x8192.Idx → EReal)
      = ScatterRows.kCounts (m ((c : Thread nD τ).loc main_arg0)) (flatIds (m ((c : Thread nD τ).loc main_arg1))) := by
  dsimp only [Gen.V]
  simp only [Gen.hostOps0, Gen.hostOps0_1, Gen.hostOps0_2, Gen.hostOps0_3, Gen.hostOps0_4, List.flatten_cons, List.flatten_nil, List.append_nil,
    List.cons_append, List.nil_append]
  after_results_simp
  rfl

end Cert.KernelHost
end
-- ==== Proof.KernelRow.lean ====
/-
  The kernel body's arithmetic, read at one element of a block.

  A block holds 8 × 512 segments of 256 channels. The body divides each segment's row of sums by that
  segment's count clamped below at one, flattens the segments to 4096 rows and multiplies them by the
  transposed weight matrix (a product into a zero accumulator: at the extended reals the plain sum over
  the 256 contracted channels, the change of float format the identity), adds the bias, and normalises
  each row: subtracts the row's mean and multiplies by the reciprocal square root of the variance plus a
  small constant. Read at `(p, q, e)` this is entry `e` of `RowSpec.normRow (RowSpec.projRow …)` of
  segment `(p, q)`'s row and count: the matrix product is read through the one-axis contraction's
  bijection with `Fin 256`, the reshapes through their row-major positions, the keep-dims broadcasts at
  coordinate `0` of their unit axis, the lane sums as `Fin`-indexed sums.
-/
import proofs.«155131_j13529146983189_2_alg».proof.Proof.Gen.KernelIdeal.Skeleton
import proofs.«155131_j13529146983189_2_alg».proof.Proof.RowSpec
import Idealize.ShloMosaic.Lib.ValueIdx
import Idealize.ShloMosaic.Lib.Pipeline.Value
import Idealize.ShloMosaic.PureOps.Ideal.Laws

noncomputable section

open scoped BigOperators

namespace Cert.KernelRow

open Cert.KernelIdeal Cert.KernelIdeal.Gen Idealize.ShloMosaic Idealize.ShloMosaic.ValueIdx Cert.RowSpec

local notation "D" => dot_S4096x256_S256x256_S4096x256_1_1_0_0_n_n

theorem D_lhs0 (j : S4096x256.Idx) (k : (D).contr.Idx) : ((D).lhsIdx j k 0 : ℕ) = j 0 := by
  simp [DotDims.lhsIdx, dot_S4096x256_S256x256_S4096x256_1_1_0_0_n_n]; rfl
theorem D_lhs1 (j : S4096x256.Idx) (k : (D).contr.Idx) : ((D).lhsIdx j k 1 : ℕ) = k ⟨0, by decide⟩ := by
  simp [DotDims.lhsIdx, dot_S4096x256_S256x256_S4096x256_1_1_0_0_n_n]; rfl
theorem D_rhs0 (j : S4096x256.Idx) (k : (D).contr.Idx) : ((D).rhsIdx j k 0 : ℕ) = j 1 := by
  simp [DotDims.rhsIdx, dot_S4096x256_S256x256_S4096x256_1_1_0_0_n_n]; rfl
theorem D_rhs1 (j : S4096x256.Idx) (k : (D).contr.Idx) : ((D).rhsIdx j k 1 : ℕ) = k ⟨0, by decide⟩ := by
  simp [DotDims.rhsIdx, dot_S4096x256_S256x256_S4096x256_1_1_0_0_n_n]; rfl

theorem mm_apply (L : FVec Ideal S4096x256 .bf16) (R : FVec Ideal S256x256 .bf16) (r : Fin 4096) (e : Fin 256) :
    matmul (D) none L R (constant S4096x256 .f32 0x00000000#32) (ix2 r e) = ∑ k : Fin 256, L (ix2 r k) * R (ix2 e k) := by
  refine (Ideal.matmul_constant_zero_apply (D) none L R (ix2 r e)).trans ?_
  rw [← Equiv.sum_comp (contrEquiv1 (D) 256 rfl rfl).symm]
  refine Finset.sum_congr rfl fun k _ => ?_
  have hk := contrEquiv1_symm_val (D) 256 rfl rfl k
  congr 2
  · funext a; apply Fin.ext
    match a with
    | ⟨0, _⟩ => exact (D_lhs0 _ _)
    | ⟨1, _⟩ => exact (D_lhs1 _ _).trans hk
  · funext a; apply Fin.ext
    match a with
    | ⟨0, _⟩ => exact (D_rhs0 _ _)
    | ⟨1, _⟩ => exact (D_rhs1 _ _).trans hk

/-! ## The layout operations of the body, read at an index -/

/-- A per-segment value laid along the channels: segment `(p, q)`'s value at every channel `e`. -/
theorem keep_apply (Y : Vec Ideal S8x512 .f32) (p : Fin 8) (q : Fin 512) (e : Fin 256) :
    broadcastTo S8x512x256 (shapeCast S8x512x1 Y shapeCasts_S8x512_S8x512x1) broadcasts_S8x512x1_S8x512x256 (ix3 p q e) = Y (ix2 p q) := by
  refine (broadcastTo_apply _ _ (ix3 p q e) (ix3 p q (0 : Fin 1)) (fun a => match a with
    | ⟨0, _⟩ => by show p.val = (if (8 : Nat) = 1 then 0 else p.val); rw [if_neg (by decide)]
    | ⟨1, _⟩ => by show q.val = (if (512 : Nat) = 1 then 0 else q.val); rw [if_neg (by decide)]
    | ⟨2, _⟩ => by show 0 = (if (1 : Nat) = 1 then 0 else e.val); rw [if_pos rfl])).trans ?_
  refine shapeCast_apply _ _ (ix3 p q (0 : Fin 1)) (ix2 p q) ?_
  rw [Shape.rowMajor_val_two, Shape.rowMajor_val_three]
  show p.val * 512 + q.val = (p.val * 512 + q.val) * 1 + 0
  omega

/-- A per-channel vector laid over the segments: channel `e`'s value at every segment. -/
theorem chan_apply (P : Vec Ideal S256 .f32) (p : Fin 8) (q : Fin 512) (e : Fin 256) :
    broadcastTo S8x512x256 (shapeCast S1x1x256 P shapeCasts_S256_S1x1x256) broadcasts_S1x1x256_S8x512x256 (ix3 p q e) = P (ix1 e) := by
  refine (broadcastTo_apply _ _ (ix3 p q e) (ix3 (0 : Fin 1) (0 : Fin 1) e) (fun a => match a with
    | ⟨0, _⟩ => by show 0 = (if (1 : Nat) = 1 then 0 else p.val); rw [if_pos rfl]
    | ⟨1, _⟩ => by show 0 = (if (1 : Nat) = 1 then 0 else q.val); rw [if_pos rfl]
    | ⟨2, _⟩ => by show e.val = (if (256 : Nat) = 1 then 0 else e.val); rw [if_neg (by decide)])).trans ?_
  refine shapeCast_apply _ _ (ix3 (0 : Fin 1) (0 : Fin 1) e) (ix1 e) ?_
  rw [Shape.rowMajor_val_one, Shape.rowMajor_val_three]
  show e.val = (0 * 1 + 0) * 256 + e.val
  omega

/-- The flat row of segment `(p, q)` of a block. -/
abbrev flat (p : Fin 8) (q : Fin 512) : Fin 4096 := ⟨p.val * 512 + q.val, by have := p.isLt; have := q.isLt; omega⟩

/-- The block's segments flattened to rows: row `p · 512 + q` is segment `(p, q)`. -/
theorem toRows_apply {φ : FTy} (X : FVec Ideal S8x512x256 φ) (p : Fin 8) (q : Fin 512) (k : Fin 256) :
    shapeCast S4096x256 X shapeCasts_S8x512x256_S4096x256 (ix2 (flat p q) k) = X (ix3 p q k) := by
  refine shapeCast_apply _ _ (ix2 (flat p q) k) (ix3 p q k) ?_
  rw [Shape.rowMajor_val_two, Shape.rowMajor_val_three]; rfl

/-- … and back. -/
theorem ofRows_apply (M : FVec Ideal S4096x256 .f32) (p : Fin 8) (q : Fin 512) (e : Fin 256) :
    shapeCast S8x512x256 M shapeCasts_S4096x256_S8x512x256 (ix3 p q e) = M (ix2 (flat p q) e) := by
  refine shapeCast_apply _ _ (ix3 p q e) (ix2 (flat p q) e) ?_
  rw [Shape.rowMajor_val_two, Shape.rowMajor_val_three]; rfl

/-- The sum over the channels of segment `(p, q)`. -/
theorem rowsum_apply (X : FVec Ideal S8x512x256 .f32) (p : Fin 8) (q : Fin 512) :
    multiReduction .add [2] S8x512 X 0x00000000#32 reduces_S8x512x256_S8x512 (.inl rfl) rfl (ix2 p q) = ∑ e : Fin 256, X (ix3 p q e) := by
  refine (Ideal.multiReduction_add_single X _ reduces_S8x512x256_S8x512 (.inl rfl) rfl (ix2 p q)).trans ?_
  refine Finset.sum_congr rfl fun e _ => ?_
  congr 1; funext a; apply Fin.ext
  match a with
  | ⟨0, _⟩ => rfl
  | ⟨1, _⟩ => rfl
  | ⟨2, _⟩ => rfl

/-! ## The body's arithmetic in two steps -/

/-- The block of sums, each segment's row over its clamped count. -/
def scaled (P0 : Vec Ideal S8x512 .f32) (P1 : Vec Ideal S8x512x256 .f32) : FVec Ideal S8x512x256 .f32 :=
  divf (shapeCast S8x512x256 P1 shapeCasts_S8x512x256_S8x512x256)
    (broadcastTo S8x512x256 (shapeCast S8x512x1 (maximumf (shapeCast S8x512 P0 shapeCasts_S8x512_S8x512) (broadcast S8x512 (Scalar.ofBits .f32 0x3F800000#32))) shapeCasts_S8x512_S8x512x1) broadcasts_S8x512x1_S8x512x256)

/-- The projected block: the scaled block against the weights, plus the bias. -/
def projBlock (P0 : Vec Ideal S8x512 .f32) (P1 : Vec Ideal S8x512x256 .f32) (P2 : Vec Ideal S256x256 .f32) (P3 : Vec Ideal S256 .f32) :
    FVec Ideal S8x512x256 .f32 :=
  addf (shapeCast S8x512x256 (matmul (D) none
      (shapeCast S4096x256 (truncf .bf16 (scaled P0 P1) bitsLt_bf16_f32) shapeCasts_S8x512x256_S4096x256)
      (truncf .bf16 P2 bitsLt_bf16_f32) (constant S4096x256 .f32 0x00000000#32)) shapeCasts_S4096x256_S8x512x256)
    (broadcastTo S8x512x256 (shapeCast S1x1x256 P3 shapeCasts_S256_S1x1x256) broadcasts_S1x1x256_S8x512x256)

/-- The mean of each segment's channels, laid back along the channels. -/
def meanBlock (X : FVec Ideal S8x512x256 .f32) : FVec Ideal S8x512x1 .f32 :=
  divf (shapeCast S8x512x1 (multiReduction .add [2] S8x512 X 0x00000000#32 reduces_S8x512x256_S8x512 (.inl rfl) rfl) shapeCasts_S8x512_S8x512x1)
    (broadcast S8x512x1 (Scalar.ofBits .f32 0x43800000#32))

/-- The normalised block. -/
def normBlock (X : FVec Ideal S8x512x256 .f32) : FVec Ideal S8x512x256 .f32 :=
  mulf (subf X (broadcastTo S8x512x256 (meanBlock X) broadcasts_S8x512x1_S8x512x256))
    (broadcastTo S8x512x256 (rsqrt (addf (meanBlock (mulf (subf X (broadcastTo S8x512x256 (meanBlock X) broadcasts_S8x512x1_S8x512x256)) (subf X (broadcastTo S8x512x256 (meanBlock X) broadcasts_S8x512x1_S8x512x256))))
      (broadcast S8x512x1 (Scalar.ofBits .f32 0x3727C5AC#32)))) broadcasts_S8x512x1_S8x512x256)

theorem pay4_eq (P0 : Vec Ideal S8x512 .f32) (P1 : Vec Ideal S8x512x256 .f32) (P2 : Vec Ideal S256x256 .f32) (P3 : Vec Ideal S256 .f32) :
    k0_pay4 P0 P1 P2 P3 = normBlock (projBlock P0 P1 P2 P3) := rfl

/-! ## The two steps at an index -/

theorem scaled_apply (P0 : Vec Ideal S8x512 .f32) (P1 : Vec Ideal S8x512x256 .f32) (p : Fin 8) (q : Fin 512) (d : Fin 256) :
    scaled P0 P1 (ix3 p q d) = Ideal.div (P1 (ix3 p q d)) (max (P0 (ix2 p q)) one) := by
  unfold scaled
  refine (divf_apply _ _ _).trans ?_
  rw [keep_apply, shapeCast_self, shapeCast_self]
  rfl

/-- The projected block at `(p, q, e)` is entry `e` of the projected row of segment `(p, q)`. -/
theorem proj_apply (P0 : Vec Ideal S8x512 .f32) (P1 : Vec Ideal S8x512x256 .f32) (P2 : Vec Ideal S256x256 .f32) (P3 : Vec Ideal S256 .f32)
    (p : Fin 8) (q : Fin 512) (e : Fin 256) :
    projBlock P0 P1 P2 P3 (ix3 p q e) = projRow (fun d => P1 (ix3 p q d)) (P0 (ix2 p q)) P2 P3 e := by
  unfold projBlock projRow
  refine (addf_apply _ _ _).trans ?_
  rw [chan_apply P3 p q e, ofRows_apply, mm_apply]
  congr 1
  refine Finset.sum_congr rfl fun d _ => ?_
  rw [toRows_apply]
  show (scaled P0 P1) (ix3 p q d) * P2 (ix2 e d) = _
  rw [scaled_apply]

/-- A per-segment column laid along the channels. -/
theorem col_apply (Y : FVec Ideal S8x512x1 .f32) (p : Fin 8) (q : Fin 512) (e : Fin 256) :
    broadcastTo S8x512x256 Y broadcasts_S8x512x1_S8x512x256 (ix3 p q e) = Y (ix3 p q (0 : Fin 1)) :=
  broadcastTo_apply _ _ (ix3 p q e) (ix3 p q (0 : Fin 1)) (fun a => match a with
    | ⟨0, _⟩ => by show p.val = (if (8 : Nat) = 1 then 0 else p.val); rw [if_neg (by decide)]
    | ⟨1, _⟩ => by show q.val = (if (512 : Nat) = 1 then 0 else q.val); rw [if_neg (by decide)]
    | ⟨2, _⟩ => by show 0 = (if (1 : Nat) = 1 then 0 else e.val); rw [if_pos rfl])

theorem meanBlock_apply (X : FVec Ideal S8x512x256 .f32) (p : Fin 8) (q : Fin 512) :
    meanBlock X (ix3 p q (0 : Fin 1)) = mean (fun e => X (ix3 p q e)) := by
  unfold meanBlock mean
  refine (divf_apply _ _ _).trans ?_
  have h : ∀ (Y : FVec Ideal S8x512 .f32), shapeCast S8x512x1 Y shapeCasts_S8x512_S8x512x1 (ix3 p q (0 : Fin 1)) = Y (ix2 p q) := fun Y =>
    shapeCast_apply _ _ (ix3 p q (0 : Fin 1)) (ix2 p q) (by
      rw [Shape.rowMajor_val_two, Shape.rowMajor_val_three]
      show p.val * 512 + q.val = (p.val * 512 + q.val) * 1 + 0
      omega)
  rw [h, rowsum_apply]
  rfl

/-- The normalised block at `(p, q, e)` is entry `e` of the normalised row of segment `(p, q)`. -/
theorem norm_apply (X : FVec Ideal S8x512x256 .f32) (p : Fin 8) (q : Fin 512) (e : Fin 256) :
    normBlock X (ix3 p q e) = normRow (fun e' => X (ix3 p q e')) e := by
  have hdev : ∀ e' : Fin 256, (subf X (broadcastTo S8x512x256 (meanBlock X) broadcasts_S8x512x1_S8x512x256)) (ix3 p q e')
      = X (ix3 p q e') - mean (fun e => X (ix3 p q e)) := fun e' => by
    refine (subf_apply _ _ _).trans ?_
    rw [col_apply, meanBlock_apply]
  unfold normBlock normRow
  refine (mulf_apply _ _ _).trans ?_
  rw [hdev e, col_apply]
  show _ * Ideal.rsqrt ((meanBlock _) (ix3 p q (0 : Fin 1)) + eps) = _
  rw [meanBlock_apply]
  congr 4
  funext e'
  refine (mulf_apply _ _ _).trans ?_
  rw [hdev e']

/-- The body's pre-scale value at `(p, q, e)`: the normalised projected row of segment `(p, q)`. -/
theorem pay4_apply (P0 : Vec Ideal S8x512 .f32) (P1 : Vec Ideal S8x512x256 .f32) (P2 : Vec Ideal S256x256 .f32) (P3 : Vec Ideal S256 .f32)
    (p : Fin 8) (q : Fin 512) (e : Fin 256) :
    k0_pay4 P0 P1 P2 P3 (ix3 p q e) = normRow (projRow (fun d => P1 (ix3 p q d)) (P0 (ix2 p q)) P2 P3) e := by
  rw [pay4_eq, norm_apply]
  congr 1
  funext e'
  exact proj_apply P0 P1 P2 P3 p q e'

end Cert.KernelRow
end
-- ==== Proof.KernelBlocks.lean ====
/-
  From the kernel's blocks to its two result arrays.

  The grid has 2 × 16 points; point `t` stages block `(t / 16, t % 16)` of the pooled sums (8 × 512
  segments of 256 channels) and of the pooled counts (8 × 512), the weights, bias, scale and shift whole,
  and writes back the same block of each result. What the body leaves in its output block at `(p, q, e)`
  is the row function of segment `(p, q)` of the block it loaded; a block's element `(p, q, e)` is the
  array's element `(8·(t / 16) + p, 512·(t % 16) + q, e)` — a block coordinate is always index × size +
  coordinate inside the block — so point `t` writes back block `t` of ONE whole-array function, the row
  function of the pooled arrays; the 32 blocks tile the arrays (segment row `r` lies in block row `r / 8`,
  segment column `s` in block column `s / 512`), so after the run each result array IS that function.
-/
import proofs.«155131_j13529146983189_2_alg».proof.Proof.Gen.KernelIdeal.Value
import proofs.«155131_j13529146983189_2_alg».proof.Proof.KernelRow

set_option maxRecDepth 16384

noncomputable section

open scoped BigOperators

namespace Cert.KernelBlocks

open Cert.KernelIdeal Cert.KernelIdeal.Gen Cert.KernelIdeal.Value Idealize.ShloMosaic Idealize.ShloMosaic.TcCoe Idealize.SL.Sem
open Idealize.ShloMosaic.ValueIdx Cert.RowSpec
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

theorem ix6_0_ix3 (p : Fin 8) (q : Fin 512) (e : Fin 256) : ix6_0 (ix3 p q e) = ix3 p q e := by
  funext a; match a with | ⟨0, _⟩ => rfl | ⟨1, _⟩ => rfl | ⟨2, _⟩ => rfl
theorem ix6_1_ix3 (p : Fin 8) (q : Fin 512) (e : Fin 256) : ix6_1 (ix3 p q e) = ix1 e := by
  funext a; match a with | ⟨0, _⟩ => rfl
theorem ix6_2_ix3 (p : Fin 8) (q : Fin 512) (e : Fin 256) : ix6_2 (ix3 p q e) = ix1 e := by
  funext a; match a with | ⟨0, _⟩ => rfl
theorem ix7_0_ix2 (p : Fin 8) (q : Fin 512) : ix7_0 (ix2 p q) = ix2 p q := by
  funext a; match a with | ⟨0, _⟩ => rfl | ⟨1, _⟩ => rfl

/-- What the body leaves in the output block, at `(p, q, e)`, from the blocks it loads. -/
theorem out6_apply (x0 : Vec Ideal S8x512x256 .f32) (x1 : Vec Ideal S8x512 .f32) (x2 : Vec Ideal S256x256 .f32)
    (x3 x4 x5 : Vec Ideal S256 .f32) (p : Fin 8) (q : Fin 512) (e : Fin 256) :
    out0_6 x0 x1 x2 x3 x4 x5 (ix3 p q e) = outAt x0 x1 x2 x3 x4 x5 p q e := by
  unfold out0_6
  rw [canon6_eq]
  simp only [View.ld_unit_zero (S := S8x512x256) hz3, View.ld_unit_zero (S := S8x512) hz2, View.ld_unit_zero (S := S256x256) hz2, View.ld_unit_zero (S := S256) hz1]
  show FloatOps.addf (FloatOps.mulf ((k0_pay4 x1 x0 x2 x3) (ix6_0 (ix3 p q e))) (x4 (ix6_1 (ix3 p q e)))) (x5 (ix6_2 (ix3 p q e))) = _
  rw [ix6_0_ix3, ix6_1_ix3, ix6_2_ix3, KernelRow.pay4_apply]
  rfl

/-- What the body leaves in the mask block, at `(p, q)`. -/
theorem out7_apply (x0 : Vec Ideal S8x512x256 .f32) (x1 : Vec Ideal S8x512 .f32) (x2 : Vec Ideal S256x256 .f32)
    (x3 x4 x5 : Vec Ideal S256 .f32) (p : Fin 8) (q : Fin 512) :
    out0_7 x0 x1 x2 x3 x4 x5 (ix2 p q) = maskAt x1 p q := by
  unfold out0_7
  rw [canon7_eq]
  simp only [View.ld_unit_zero (S := S8x512) hz2]
  show FloatOps.sitofp (F := Ideal) .f32 ((FloatOps.cmpf (F := Ideal) (φ := .f32) .ogt (x1 (ix7_0 (ix2 p q))) (Scalar.ofBits .f32 0x00000000#32)).setWidth 32) = _
  rw [ix7_0_ix2]
  show ((((FloatOps.cmpf (F := Ideal) (φ := .f32) .ogt (x1 (ix2 p q)) (Scalar.ofBits (F := Ideal) .f32 0x00000000#32)).setWidth 32).toInt : ℝ) : EReal) = _
  rw [bit_toInt]
  rfl

variable (m : (ℓ : Loc nD τ sig) → Buf (Elt Ideal) ℓ) (ρ : Dev nD → PrngReg)

/-- The printed index maps, decided over the 32 grid points: the sums' and counts' blocks and both output blocks move together
    (block row `t / 16`, block column `t % 16`), the weights, bias, scale and shift stay whole. -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0 ∧ win0_6.index t (2 : Fin 3) = 0
    ∧ win0_1.index t (0 : Fin 2) = win0_6.index t (0 : Fin 3) ∧ win0_1.index t (1 : Fin 2) = win0_6.index t (1 : Fin 3)
    ∧ win0_7.index t (0 : Fin 2) = win0_6.index t (0 : Fin 3) ∧ win0_7.index t (1 : Fin 2) = win0_6.index t (1 : Fin 3)
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 3) ≤ 1 ∧ win0_6.index t (1 : Fin 3) ≤ 15 :=
  (by decide +kernel : ∀ t : Fin grid0.N, _)

/-- Every block of the 2 × 16 box is some point's. -/
theorem idx_onto : ∀ (q0 : Fin 2) (q1 : Fin 16), ∃ t : Fin cfg0.N, win0_6.index t (0 : Fin 3) = q0.val ∧ win0_6.index t (1 : Fin 3) = q1.val :=
  (by decide +kernel : ∀ (q0 : Fin 2) (q1 : Fin 16), ∃ t : Fin grid0.N, win0_6.index t (0 : Fin 3) = q0.val ∧ win0_6.index t (1 : Fin 3) = q1.val)

set_option maxHeartbeats 1000000 in
/-- What point `t` writes back to the output array is block `t` of the row function of the pooled arrays. -/
theorem flushed6_eq (c : Dev nD) (t : Fin cfg0.N) :
    (dats m 0 c).flushed 6 t = ((cfg0.win 6).blk t).view.read (Elt Ideal)
      (out (V m c main_v27) (V m c main_v29) (V m c main_arg2) (V m c main_arg3) (V m c main_arg4) (V m c main_arg5)) := by
  rw [flushed6]
  obtain ⟨e00, e01, e02, e62, e10, e11, e70, e71, e20, e21, e30, e40, e50, b0, b1⟩ := idx_facts t
  funext j
  obtain ⟨p, q, e, rfl⟩ : ∃ (p : Fin 8) (q : Fin 512) (e : Fin 256), j = ix3 p q e := ⟨j 0, j 1, j 2, eq_ix3 j⟩
  refine (out6_apply (iblk m c 0 t) (iblk m c 1 t) (iblk m c 2 t) (iblk m c 3 t) (iblk m c 4 t) (iblk m c 5 t) p q e).trans ?_
  have hp : win0_6.index t (0 : Fin 3) * 8 + p.val < 16 := by have := p.isLt; omega
  have hq : win0_6.index t (1 : Fin 3) * 512 + q.val < 8192 := by have := q.isLt; omega
  have hemb : ((cfg0.win 6).blk t).view.emb (ix3 p q e) = ix3 (⟨_, hp⟩ : Fin 16) (⟨_, hq⟩ : Fin 8192) e := by
    funext a; apply Fin.ext
    match a with
    | ⟨0, _⟩ => show win0_6.index t (0 : Fin 3) * 8 + 1 * p.val = win0_6.index t (0 : Fin 3) * 8 + p.val; omega
    | ⟨1, _⟩ => show win0_6.index t (1 : Fin 3) * 512 + 1 * q.val = win0_6.index t (1 : Fin 3) * 512 + q.val; omega
    | ⟨2, _⟩ => show win0_6.index t (2 : Fin 3) * 256 + 1 * e.val = e.val; omega
  rw [View.read_apply, hemb, out_ix3]
  have h0 : (fun d : Fin 256 => iblk m c 0 t (ix3 p q d)) = fun d => V m c main_v27 (ix3 (⟨_, hp⟩ : Fin 16) (⟨_, hq⟩ : Fin 8192) d) := by
    funext d
    have hy : ((cfg0.win 0).blk t).view.emb (ix3 p q d) = ix3 (⟨_, hp⟩ : Fin 16) (⟨_, hq⟩ : Fin 8192) d := by
      funext a; apply Fin.ext
      match a with
      | ⟨0, _⟩ => show win0_0.index t (0 : Fin 3) * 8 + 1 * p.val = win0_6.index t (0 : Fin 3) * 8 + p.val; omega
      | ⟨1, _⟩ => show win0_0.index t (1 : Fin 3) * 512 + 1 * q.val = win0_6.index t (1 : Fin 3) * 512 + q.val; omega
      | ⟨2, _⟩ => show win0_0.index t (2 : Fin 3) * 256 + 1 * d.val = d.val; omega
    show V m c main_v27 (((cfg0.win 0).blk t).view.emb (ix3 p q d)) = _
    rw [hy]
  have h1 : iblk m c 1 t (ix2 p q) = V m c main_v29 (ix2 (⟨_, hp⟩ : Fin 16) (⟨_, hq⟩ : Fin 8192)) := by
    have hy : ((cfg0.win 1).blk t).view.emb (ix2 p q) = ix2 (⟨_, hp⟩ : Fin 16) (⟨_, hq⟩ : Fin 8192) := by
      funext a; apply Fin.ext
      match a with
      | ⟨0, _⟩ => show win0_1.index t (0 : Fin 2) * 8 + 1 * p.val = win0_6.index t (0 : Fin 3) * 8 + p.val; omega
      | ⟨1, _⟩ => show win0_1.index t (1 : Fin 2) * 512 + 1 * q.val = win0_6.index t (1 : Fin 3) * 512 + q.val; omega
    show V m c main_v29 (((cfg0.win 1).blk t).view.emb (ix2 p q)) = _
    rw [hy]
  have h2 : (iblk m c 2 t : S256x256.Idx → EReal) = V m c main_arg2 := by
    funext y
    have hy : ((cfg0.win 2).blk t).view.emb y = y := by
      funext a; apply Fin.ext
      match a with
      | ⟨0, _⟩ => show win0_2.index t (0 : Fin 2) * 256 + 1 * (y 0).val = (y 0).val; omega
      | ⟨1, _⟩ => show win0_2.index t (1 : Fin 2) * 256 + 1 * (y 1).val = (y 1).val; omega
    show V m c main_arg2 (((cfg0.win 2).blk t).view.emb y) = _
    rw [hy]
  have h3 : (iblk m c 3 t : S256.Idx → EReal) = V m c main_arg3 := by
    funext y
    have hy : ((cfg0.win 3).blk t).view.emb y = y := by
      funext a; apply Fin.ext
      match a with
      | ⟨0, _⟩ => show win0_3.index t (0 : Fin 1) * 256 + 1 * (y 0).val = (y 0).val; omega
    show V m c main_arg3 (((cfg0.win 3).blk t).view.emb y) = _
    rw [hy]
  have h4 : (iblk m c 4 t : S256.Idx → EReal) = V m c main_arg4 := by
    funext y
    have hy : ((cfg0.win 4).blk t).view.emb y = y := by
      funext a; apply Fin.ext
      match a with
      | ⟨0, _⟩ => show win0_4.index t (0 : Fin 1) * 256 + 1 * (y 0).val = (y 0).val; omega
    show V m c main_arg4 (((cfg0.win 4).blk t).view.emb y) = _
    rw [hy]
  have h5 : (iblk m c 5 t : S256.Idx → EReal) = V m c main_arg5 := by
    funext y
    have hy : ((cfg0.win 5).blk t).view.emb y = y := by
      funext a; apply Fin.ext
      match a with
      | ⟨0, _⟩ => show win0_5.index t (0 : Fin 1) * 256 + 1 * (y 0).val = (y 0).val; omega
    show V m c main_arg5 (((cfg0.win 5).blk t).view.emb y) = _
    rw [hy]
  unfold outAt
  rw [h0, h1, h2, h3, h4, h5]
  exact (cast_eq _ _).symm

set_option maxHeartbeats 1000000 in
/-- What point `t` writes back to the mask array is block `t` of the mask of the pooled counts. -/
theorem flushed7_eq (c : Dev nD) (t : Fin cfg0.N) :
    (dats m 0 c).flushed 7 t = ((cfg0.win 7).blk t).view.read (Elt Ideal) (mask (V m c main_v29)) := by
  rw [flushed7]
  obtain ⟨e00, e01, e02, e62, e10, e11, e70, e71, e20, e21, e30, e40, e50, b0, b1⟩ := idx_facts t
  funext j
  obtain ⟨p, q, rfl⟩ : ∃ (p : Fin 8) (q : Fin 512), j = ix2 p q := ⟨j 0, j 1, eq_ix2 j⟩
  refine (out7_apply (iblk m c 0 t) (iblk m c 1 t) (iblk m c 2 t) (iblk m c 3 t) (iblk m c 4 t) (iblk m c 5 t) p q).trans ?_
  have hp : win0_6.index t (0 : Fin 3) * 8 + p.val < 16 := by have := p.isLt; omega
  have hq : win0_6.index t (1 : Fin 3) * 512 + q.val < 8192 := by have := q.isLt; omega
  have hemb : ((cfg0.win 7).blk t).view.emb (ix2 p q) = ix2 (⟨_, hp⟩ : Fin 16) (⟨_, hq⟩ : Fin 8192) := by
    funext a; apply Fin.ext
    match a with
    | ⟨0, _⟩ => show win0_7.index t (0 : Fin 2) * 8 + 1 * p.val = win0_6.index t (0 : Fin 3) * 8 + p.val; omega
    | ⟨1, _⟩ => show win0_7.index t (1 : Fin 2) * 512 + 1 * q.val = win0_6.index t (1 : Fin 3) * 512 + q.val; omega
  rw [View.read_apply, hemb, mask_ix2]
  have h1 : iblk m c 1 t (ix2 p q) = V m c main_v29 (ix2 (⟨_, hp⟩ : Fin 16) (⟨_, hq⟩ : Fin 8192)) := by
    have hy : ((cfg0.win 1).blk t).view.emb (ix2 p q) = ix2 (⟨_, hp⟩ : Fin 16) (⟨_, hq⟩ : Fin 8192) := by
      funext a; apply Fin.ext
      match a with
      | ⟨0, _⟩ => show win0_1.index t (0 : Fin 2) * 8 + 1 * p.val = win0_6.index t (0 : Fin 3) * 8 + p.val; omega
      | ⟨1, _⟩ => show win0_1.index t (1 : Fin 2) * 512 + 1 * q.val = win0_6.index t (1 : Fin 3) * 512 + q.val; omega
    show V m c main_v29 (((cfg0.win 1).blk t).view.emb (ix2 p q)) = _
    rw [hy]
  unfold maskAt
  rw [h1]
  exact (cast_eq _ _).symm

/-- An index of the output array is in point `t`'s block iff each coordinate is in the block's range on its axis. -/
theorem mem_blk6 (t : Fin cfg0.N) (i : S16x8192x256.Idx) :
    i ∈ ((cfg0.win 6).blk t).view.set ↔ ∀ a : Fin 3, win0_6.index t a * S8x512x256.size a ≤ (i a).val ∧ (i a).val < win0_6.index t a * S8x512x256.size a + S8x512x256.size a := by
  show i ∈ ((View.whole main_v30_0).slice (win0_6.rect t)).set ↔ _
  rw [View.set_slice_whole, Rect.mem_set_unit]
  exact Iff.rfl

theorem mem_blk7 (t : Fin cfg0.N) (i : S16x8192.Idx) :
    i ∈ ((cfg0.win 7).blk t).view.set ↔ ∀ a : Fin 2, win0_7.index t a * S8x512.size a ≤ (i a).val ∧ (i a).val < win0_7.index t a * S8x512.size a + S8x512.size a := by
  show i ∈ ((View.whole main_v30_1).slice (win0_7.rect t)).set ↔ _
  rw [View.set_slice_whole, Rect.mem_set_unit]
  exact Iff.rfl

/-- The 2 × 16 blocks of 8 × 512 segments tile the output array: segment row `r` is in block row `r / 8`, segment column `s` in block column `s / 512`. -/
theorem cover6 (i : S16x8192x256.Idx) : ∃ t : Fin cfg0.N, (cfg0.win 6).flush t = true ∧ i ∈ ((cfg0.win 6).blk t).view.set := by
  have hi0 : (i 0).val < 16 := (i 0).isLt
  have hi1 : (i 1).val < 8192 := (i 1).isLt
  have hi2 : (i 2).val < 256 := (i 2).isLt
  obtain ⟨t, ht0, ht1⟩ := idx_onto ⟨(i 0).val / 8, by omega⟩ ⟨(i 1).val / 512, by omega⟩
  have ht0' : win0_6.index t (0 : Fin 3) = (i 0).val / 8 := ht0
  have ht1' : win0_6.index t (1 : Fin 3) = (i 1).val / 512 := ht1
  obtain ⟨e00, e01, e02, e62, e10, e11, e70, e71, e20, e21, e30, e40, e50, b0, b1⟩ := idx_facts t
  refine ⟨t, flush0_6 t, ?_⟩
  rw [mem_blk6]
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 512 ≤ (i 1).val ∧ (i 1).val < win0_6.index t (1 : Fin 3) * 512 + 512; omega
  | ⟨2, _⟩ => show win0_6.index t (2 : Fin 3) * 256 ≤ (i 2).val ∧ (i 2).val < win0_6.index t (2 : Fin 3) * 256 + 256; omega

theorem cover7 (i : S16x8192.Idx) : ∃ t : Fin cfg0.N, (cfg0.win 7).flush t = true ∧ i ∈ ((cfg0.win 7).blk t).view.set := by
  have hi0 : (i 0).val < 16 := (i 0).isLt
  have hi1 : (i 1).val < 8192 := (i 1).isLt
  obtain ⟨t, ht0, ht1⟩ := idx_onto ⟨(i 0).val / 8, by omega⟩ ⟨(i 1).val / 512, by omega⟩
  have ht0' : win0_6.index t (0 : Fin 3) = (i 0).val / 8 := ht0
  have ht1' : win0_6.index t (1 : Fin 3) = (i 1).val / 512 := ht1
  obtain ⟨e00, e01, e02, e62, e10, e11, e70, e71, e20, e21, e30, e40, e50, b0, b1⟩ := idx_facts t
  refine ⟨t, flush0_7 t, ?_⟩
  rw [mem_blk7]
  intro a
  match a with
  | ⟨0, _⟩ => show win0_7.index t (0 : Fin 2) * 8 ≤ (i 0).val ∧ (i 0).val < win0_7.index t (0 : Fin 2) * 8 + 8; omega
  | ⟨1, _⟩ => show win0_7.index t (1 : Fin 2) * 512 ≤ (i 1).val ∧ (i 1).val < win0_7.index t (1 : Fin 2) * 512 + 512; omega

/-- The output array after the run: the row function of the pooled arrays as the region found them. -/
theorem final6 (c : Dev nD) : (dats m 0 c).arrAt 6 cfg0.N
    = out (V m c main_v27) (V m c main_v29) (V m c main_arg2) (V m c main_arg3) (V m c main_arg4) (V m c main_arg5) :=
  (dats m 0 c).arrAt_eq_of_cover 6 _ (fun t _ => flushed6_eq m c t) cover6

/-- The mask array after the run. -/
theorem final7 (c : Dev nD) : (dats m 0 c).arrAt 7 cfg0.N = mask (V m c main_v29) :=
  (dats m 0 c).arrAt_eq_of_cover 7 _ (fun t _ => flushed7_eq m c t) cover7

/-- The kernel program's run: both results as the row function and the mask of the pooled arrays, the arguments unchanged. -/
theorem run : θ_run defs (onTc (τ := τ) (main (F := Ideal))) ⟨m, fun _ => 0, ρ⟩ fun r => ∀ c : Dev nD,
      r.2.mem ((c : Thread nD τ).loc main_v30_0)
        = out (V m c main_v27) (V m c main_v29) (V m c main_arg2) (V m c main_arg3) (V m c main_arg4) (V m c main_arg5)
      ∧ r.2.mem ((c : Thread nD τ).loc main_v30_1) = mask (V m c main_v29)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (run_blocks m ρ)

end Cert.KernelBlocks
end
-- ==== Proof.LibStages.lean ====
/-
  Reading a straight line of host operations back in stages.

  The contents a line of operations leaves are a fold of the operations' results over the contents it starts from, so a
  line cut in two anywhere is read back in two steps: the head part from the starting contents, then the tail part from
  what the head part leaves. Cutting a long line into short stages, each read back once over ARBITRARY starting
  contents, keeps every term as small as one stage.
-/
import Idealize.ShloMosaic.Lib.StableHlo.Run

noncomputable section

namespace Idealize.ShloMosaic.StableHlo

variable {τ : Topo} {sig : RefSig} {Val : EltTy → Type}

/-- The contents after two lines run one after the other: the second line's, from what the first leaves. -/
theorem after_append (A B : List (HloOp τ sig Val)) (V : Valuation τ sig Val) :
    after (A ++ B) V = after B (after A V) := by
  induction A generalizing V with
  | nil => rfl
  | cons a A ih => exact ih (a.result V)

/-- A line cut after its first `n` operations: the rest, from what the first `n` leave. -/
theorem after_take_drop (n : Nat) (ops : List (HloOp τ sig Val)) (V : Valuation τ sig Val) :
    after ops V = after (ops.drop n) (after (ops.take n) V) := by
  rw [← after_append, List.take_append_drop]

end Idealize.ShloMosaic.StableHlo

end
-- ==== Proof.RefRun.lean ====
/-
  The reference program's run, read back.

  The reference is a straight line of host operations: two outlined functions are called in it, and a call runs the
  callee's operations on the call's own buffers, so the whole program is one list of operations. The list is cut in
  two. The first part computes, from the input rows and the token ids, the flat segment id of every token and then
  the per-segment sums of the rows and the per-segment counts. The second part computes, from those sums and counts
  and the four parameters, the mask of non-empty segments and the layer-normalized linear layer of the segment means.
  What a buffer holds after a list of operations is the fold of the operations' results over what the buffers held
  before; each part is read back once over arbitrary starting contents, as a named composition of the operations'
  functions, and the two readings are composed along the cut into the statement of the whole run.
-/
import proofs.«155131_j13529146983189_2_alg».proof.Proof.Gen.ReferenceIdeal
import proofs.«155131_j13529146983189_2_alg».proof.Proof.LibStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first part of the reference, in program order: the segment ids (a running count of segment starts along each row, offset by the row's base, boundary tokens sent to one id past the last), then the per-segment sums of the rows of the input and the per-segment counts, by scatter-add into one row more than there are tokens, the extra row dropped. The two outlined functions' operations are listed where they are called, over the call's own buffers. -/
abbrev opsPool : List (HloOp τ sig (Elt F)) :=
  [ nullary main_c (constantI S_ 32 0#32),
    unary main_c main_v0 (broadcastInDim S16x8192 ![] bcast_S_S16x8192 : (⟨S_, .i32⟩ : BufTy).Contents (Elt F) → (⟨S16x8192, .i32⟩ : BufTy).Contents (Elt F)),
    binary main_arg1 main_v0 main_v1 (cmpi .eq : (⟨S16x8192, .i32⟩ : BufTy).Contents (Elt F) → (⟨S16x8192, .i32⟩ : BufTy).Contents (Elt F) → (⟨S16x8192, .i1⟩ : BufTy).Contents (Elt F)),
    unary main_v1 main_v2 (noti : (⟨S16x8192, .i1⟩ : BufTy).Contents (Elt F) → (⟨S16x8192, .i1⟩ : BufTy).Contents (Elt F)),
    nullary main_c_0 (constantI S_ 1 1#1),
    unary main_c_0 main_v3 (broadcastInDim S16x1 ![] bcast_S_S16x1 : (⟨S_, .i1⟩ : BufTy).Contents (Elt F) → (⟨S16x1, .i1⟩ : BufTy).Contents (Elt F)),
    unary main_v1 main_v4 ((extractStridedSlice S16x8191 ![0, 0] · slices_S16x8192_S16x8191_0_0) : (⟨S16x8192, .i1⟩ : BufTy).Contents (Elt F) → (⟨S16x8191, .i1⟩ : BufTy).Contents (Elt F)),
    binary main_v3 main_v4 main_v5 ((fun a b => concatenate S16x8192 1 [⟨S16x1, a⟩, ⟨S16x8191, b⟩] concatenates_S16x1_S16x8191_S16x8192_d1) : (⟨S16x1, .i1⟩ : BufTy).Contents (Elt F) → (⟨S16x8191, .i1⟩ : BufTy).Contents (Elt F) → (⟨S16x8192, .i1⟩ : BufTy).Contents (Elt F)),
    binary main_v2 main_v5 main_v6 (andi : (⟨S16x8192, .i1⟩ : BufTy).Contents (Elt F) → (⟨S16x8192, .i1⟩ : BufTy).Contents (Elt F) → (⟨S16x8192, .i1⟩ : BufTy).Contents (Elt F)),
    unary main_v6 main_v7 ((extui 32 · natLt_1_32) : (⟨S16x8192, .i1⟩ : BufTy).Contents (Elt F) → (⟨S16x8192, .i32⟩ : BufTy).Contents (Elt F)),
    TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_v7 : TRef sig ⟨S16x8192, .i32⟩) (.of main_call0_call0_v0 : TRef sig ⟨S_, .i32⟩) (.of main_v8 : TRef sig ⟨S16x8192, .i32⟩) (fun x v => Host.reduceWindow IntOp.addi ![1, 8192] ![1, 1] ![0, 8191] ![0, 0] x v reduceWindows_S16x8192_S16x8192_w1s1p0_0_w8192s1p8191_0 h_S_),
    nullary main_c_1 (constantI S_ 32 1#32),
    unary main_c_1 main_v9 (broadcastInDim S16x8192 ![] bcast_S_S16x8192 : (⟨S_, .i32⟩ : BufTy).Contents (Elt F) → (⟨S16x8192, .i32⟩ : BufTy).Contents (Elt F)),
    binary main_v8 main_v9 main_v10 (subi : (⟨S16x8192, .i32⟩ : BufTy).Contents (Elt F) → (⟨S16x8192, .i32⟩ : BufTy).Contents (Elt F) → (⟨S16x8192, .i32⟩ : BufTy).Contents (Elt F)),
    nullary main_v11 (iotaInDim S16 32 0),
    unary main_v11 main_v12 (broadcastInDim S16x1 ![0] bcast_S16_S16x1_0 : (⟨S16, .i32⟩ : BufTy).Contents (Elt F) → (⟨S16x1, .i32⟩ : BufTy).Contents (Elt F)),
    nullary main_c_2 (constantI S_ 32 8192#32),
    unary main_c_2 main_v13 (broadcastInDim S16x1 ![] bcast_S_S16x1 : (⟨S_, .i32⟩ : BufTy).Contents (Elt F) → (⟨S16x1, .i32⟩ : BufTy).Contents (Elt F)),
    binary main_v12 main_v13 main_v14 (muli : (⟨S16x1, .i32⟩ : BufTy).Contents (Elt F) → (⟨S16x1, .i32⟩ : BufTy).Contents (Elt F) → (⟨S16x1, .i32⟩ : BufTy).Contents (Elt F)),
    unary main_v14 main_v15 (broadcastInDim S16x8192 ![0, 1] bcast_S16x1_S16x8192_0_1 : (⟨S16x1, .i32⟩ : BufTy).Contents (Elt F) → (⟨S16x8192, .i32⟩ : BufTy).Contents (Elt F)),
    binary main_v10 main_v15 main_v16 (addi : (⟨S16x8192, .i32⟩ : BufTy).Contents (Elt F) → (⟨S16x8192, .i32⟩ : BufTy).Contents (Elt F) → (⟨S16x8192, .i32⟩ : BufTy).Contents (Elt F)),
    nullary main_c_3 (constantI S_ 32 131072#32),
    TRef.unary (.of main_c_3 : TRef sig ⟨S_, .i32⟩) (.of main_call1_v0 : TRef sig ⟨S_, .i32⟩) id,
    TRef.unary (.of main_call1_v0 : TRef sig ⟨S_, .i32⟩) (.of main_call1_v1 : TRef sig ⟨S16x8192, .i32⟩) (broadcastInDim S16x8192 ![] bcast_S_S16x8192),
    TRef.ternary (.of main_v2 : TRef sig ⟨S16x8192, .i1⟩) (.of main_v16 : TRef sig ⟨S16x8192, .i32⟩) (.of main_call1_v1 : TRef sig ⟨S16x8192, .i32⟩) (.of main_v17 : TRef sig ⟨S16x8192, .i32⟩) select,
    reshape main_v17 main_v18 rfl shapeCasts_S16x8192_S131072,
    reshape main_arg0 main_v19 rfl shapeCasts_S16x8192x256_S131072x256,
    nullary main_cst (constant S_ .f32 0x00000000#32),
    unary main_cst main_v20 (broadcastInDim S131073x256 ![] bcast_S_S131073x256 : (⟨S_, .f32⟩ : BufTy).Contents (Elt F) → (⟨S131073x256, .f32⟩ : BufTy).Contents (Elt F)),
    unary main_v18 main_v21 (broadcastInDim S131072x1 ![0] bcast_S131072_S131072x1_0 : (⟨S131072, .i32⟩ : BufTy).Contents (Elt F) → (⟨S131072x1, .i32⟩ : BufTy).Contents (Elt F)),
    ternary main_v20 main_v21 main_v19 main_v22 ((fun x i u => Host.scatterAdd scatter_S131073x256_S131072x1_S131072x256_1_0_0_1 x i u) : (⟨S131073x256, .f32⟩ : BufTy).Contents (Elt F) → (⟨S131072x1, .i32⟩ : BufTy).Contents (Elt F) → (⟨S131072x256, .f32⟩ : BufTy).Contents (Elt F) → (⟨S131073x256, .f32⟩ : BufTy).Contents (Elt F)),
    unary main_v22 main_v23 ((extractStridedSlice S131072x256 ![0, 0] · slices_S131073x256_S131072x256_0_0) : (⟨S131073x256, .f32⟩ : BufTy).Contents (Elt F) → (⟨S131072x256, .f32⟩ : BufTy).Contents (Elt F)),
    nullary main_cst_4 (constant S_ .f32 0x3F800000#32),
    unary main_cst_4 main_v24 (broadcastInDim S131072 ![] bcast_S_S131072 : (⟨S_, .f32⟩ : BufTy).Contents (Elt F) → (⟨S131072, .f32⟩ : BufTy).Contents (Elt F)),
    nullary main_cst_5 (constant S_ .f32 0x00000000#32),
    unary main_cst_5 main_v25 (broadcastInDim S131073 ![] bcast_S_S131073 : (⟨S_, .f32⟩ : BufTy).Contents (Elt F) → (⟨S131073, .f32⟩ : BufTy).Contents (Elt F)),
    unary main_v18 main_v26 (broadcastInDim S131072x1 ![0] bcast_S131072_S131072x1_0 : (⟨S131072, .i32⟩ : BufTy).Contents (Elt F) → (⟨S131072x1, .i32⟩ : BufTy).Contents (Elt F)),
    ternary main_v25 main_v26 main_v24 main_v27 ((fun x i u => Host.scatterAdd scatter_S131073_S131072x1_S131072_n_0_0_1 x i u) : (⟨S131073, .f32⟩ : BufTy).Contents (Elt F) → (⟨S131072x1, .i32⟩ : BufTy).Contents (Elt F) → (⟨S131072, .f32⟩ : BufTy).Contents (Elt F) → (⟨S131073, .f32⟩ : BufTy).Contents (Elt F)),
    unary main_v27 main_v28 ((extractStridedSlice S131072 ![0] · slices_S131073_S131072_0) : (⟨S131073, .f32⟩ : BufTy).Contents (Elt F) → (⟨S131072, .f32⟩ : BufTy).Contents (Elt F)),
    reshape main_v23 main_v29 rfl shapeCasts_S131072x256_S16x8192x256,
    reshape main_v28 main_v30 rfl shapeCasts_S131072_S16x8192 ]

/-- The second part of the reference, in program order: the mask of non-empty segments, the segment means, the linear layer and the layer normalization with its scale and shift. -/
abbrev opsTail : List (HloOp τ sig (Elt F)) :=
  [ nullary main_cst_6 (constant S_ .f32 0x00000000#32),
    unary main_cst_6 main_v31 (broadcastInDim S16x8192 ![] bcast_S_S16x8192 : (⟨S_, .f32⟩ : BufTy).Contents (Elt F) → (⟨S16x8192, .f32⟩ : BufTy).Contents (Elt F)),
    binary main_v30 main_v31 main_v32 (cmpf .ogt : (⟨S16x8192, .f32⟩ : BufTy).Contents (Elt F) → (⟨S16x8192, .f32⟩ : BufTy).Contents (Elt F) → (⟨S16x8192, .i1⟩ : BufTy).Contents (Elt F)),
    unary main_v32 main_v33 (uitofp .f32 : (⟨S16x8192, .i1⟩ : BufTy).Contents (Elt F) → (⟨S16x8192, .f32⟩ : BufTy).Contents (Elt F)),
    nullary main_cst_7 (constant S_ .f32 0x3F800000#32),
    unary main_cst_7 main_v34 (broadcastInDim S16x8192 ![] bcast_S_S16x8192 : (⟨S_, .f32⟩ : BufTy).Contents (Elt F) → (⟨S16x8192, .f32⟩ : BufTy).Contents (Elt F)),
    binary main_v30 main_v34 main_v35 (maximumf : (⟨S16x8192, .f32⟩ : BufTy).Contents (Elt F) → (⟨S16x8192, .f32⟩ : BufTy).Contents (Elt F) → (⟨S16x8192, .f32⟩ : BufTy).Contents (Elt F)),
    unary main_v35 main_v36 (broadcastInDim S16x8192x1 ![0, 1] bcast_S16x8192_S16x8192x1_0_1 : (⟨S16x8192, .f32⟩ : BufTy).Contents (Elt F) → (⟨S16x8192x1, .f32⟩ : BufTy).Contents (Elt F)),
    unary main_v36 main_v37 (broadcastInDim S16x8192x256 ![0, 1, 2] bcast_S16x8192x1_S16x8192x256_0_1_2 : (⟨S16x8192x1, .f32⟩ : BufTy).Contents (Elt F) → (⟨S16x8192x256, .f32⟩ : BufTy).Contents (Elt F)),
    binary main_v29 main_v37 main_v38 (Host.divf : (⟨S16x8192x256, .f32⟩ : BufTy).Contents (Elt F) → (⟨S16x8192x256, .f32⟩ : BufTy).Contents (Elt F) → (⟨S16x8192x256, .f32⟩ : BufTy).Contents (Elt F)),
    binary main_v38 main_arg2 main_v39 ((fun l r => Host.dotGeneral dot_S16x8192x256_S256x256_S16x8192x256_2_1_01_0_n_n none l r) : (⟨S16x8192x256, .f32⟩ : BufTy).Contents (Elt F) → (⟨S256x256, .f32⟩ : BufTy).Contents (Elt F) → (⟨S16x8192x256, .f32⟩ : BufTy).Contents (Elt F)),
    unary main_arg3 main_v40 (broadcastInDim S1x1x256 ![2] bcast_S256_S1x1x256_2 : (⟨S256, .f32⟩ : BufTy).Contents (Elt F) → (⟨S1x1x256, .f32⟩ : BufTy).Contents (Elt F)),
    unary main_v40 main_v41 (broadcastInDim S16x8192x256 ![0, 1, 2] bcast_S1x1x256_S16x8192x256_0_1_2 : (⟨S1x1x256, .f32⟩ : BufTy).Contents (Elt F) → (⟨S16x8192x256, .f32⟩ : BufTy).Contents (Elt F)),
    binary main_v39 main_v41 main_v42 (addf : (⟨S16x8192x256, .f32⟩ : BufTy).Contents (Elt F) → (⟨S16x8192x256, .f32⟩ : BufTy).Contents (Elt F) → (⟨S16x8192x256, .f32⟩ : BufTy).Contents (Elt F)),
    nullary main_cst_8 (constant S_ .f32 0x00000000#32),
    binary main_v42 main_cst_8 main_v43 ((fun x v => Host.reduceAdd x v reducesTo_S16x8192x256_S16x8192_d2 h_S_) : (⟨S16x8192x256, .f32⟩ : BufTy).Contents (Elt F) → (⟨S_, .f32⟩ : BufTy).Contents (Elt F) → (⟨S16x8192, .f32⟩ : BufTy).Contents (Elt F)),
    unary main_v43 main_v44 (broadcastInDim S16x8192x1 ![0, 1] bcast_S16x8192_S16x8192x1_0_1 : (⟨S16x8192, .f32⟩ : BufTy).Contents (Elt F) → (⟨S16x8192x1, .f32⟩ : BufTy).Contents (Elt F)),
    nullary main_cst_9 (constant S_ .f32 0x43800000#32),
    unary main_cst_9 main_v45 (broadcastInDim S16x8192x1 ![] bcast_S_S16x8192x1 : (⟨S_, .f32⟩ : BufTy).Contents (Elt F) → (⟨S16x8192x1, .f32⟩ : BufTy).Contents (Elt F)),
    binary main_v44 main_v45 main_v46 (Host.divf : (⟨S16x8192x1, .f32⟩ : BufTy).Contents (Elt F) → (⟨S16x8192x1, .f32⟩ : BufTy).Contents (Elt F) → (⟨S16x8192x1, .f32⟩ : BufTy).Contents (Elt F)),
    unary main_v46 main_v47 (broadcastInDim S16x8192x256 ![0, 1, 2] bcast_S16x8192x1_S16x8192x256_0_1_2 : (⟨S16x8192x1, .f32⟩ : BufTy).Contents (Elt F) → (⟨S16x8192x256, .f32⟩ : BufTy).Contents (Elt F)),
    binary main_v42 main_v47 main_v48 (subf : (⟨S16x8192x256, .f32⟩ : BufTy).Contents (Elt F) → (⟨S16x8192x256, .f32⟩ : BufTy).Contents (Elt F) → (⟨S16x8192x256, .f32⟩ : BufTy).Contents (Elt F)),
    binary main_v48 main_v48 main_v49 (mulf : (⟨S16x8192x256, .f32⟩ : BufTy).Contents (Elt F) → (⟨S16x8192x256, .f32⟩ : BufTy).Contents (Elt F) → (⟨S16x8192x256, .f32⟩ : BufTy).Contents (Elt F)),
    nullary main_cst_10 (constant S_ .f32 0x00000000#32),
    binary main_v49 main_cst_10 main_v50 ((fun x v => Host.reduceAdd x v reducesTo_S16x8192x256_S16x8192_d2 h_S_) : (⟨S16x8192x256, .f32⟩ : BufTy).Contents (Elt F) → (⟨S_, .f32⟩ : BufTy).Contents (Elt F) → (⟨S16x8192, .f32⟩ : BufTy).Contents (Elt F)),
    unary main_v50 main_v51 (broadcastInDim S16x8192x1 ![0, 1] bcast_S16x8192_S16x8192x1_0_1 : (⟨S16x8192, .f32⟩ : BufTy).Contents (Elt F) → (⟨S16x8192x1, .f32⟩ : BufTy).Contents (Elt F)),
    nullary main_cst_11 (constant S_ .f32 0x43800000#32),
    unary main_cst_11 main_v52 (broadcastInDim S16x8192x1 ![] bcast_S_S16x8192x1 : (⟨S_, .f32⟩ : BufTy).Contents (Elt F) → (⟨S16x8192x1, .f32⟩ : BufTy).Contents (Elt F)),
    binary main_v51 main_v52 main_v53 (Host.divf : (⟨S16x8192x1, .f32⟩ : BufTy).Contents (Elt F) → (⟨S16x8192x1, .f32⟩ : BufTy).Contents (Elt F) → (⟨S16x8192x1, .f32⟩ : BufTy).Contents (Elt F)),
    unary main_v46 main_v54 (broadcastInDim S16x8192x256 ![0, 1, 2] bcast_S16x8192x1_S16x8192x256_0_1_2 : (⟨S16x8192x1, .f32⟩ : BufTy).Contents (Elt F) → (⟨S16x8192x256, .f32⟩ : BufTy).Contents (Elt F)),
    binary main_v42 main_v54 main_v55 (subf : (⟨S16x8192x256, .f32⟩ : BufTy).Contents (Elt F) → (⟨S16x8192x256, .f32⟩ : BufTy).Contents (Elt F) → (⟨S16x8192x256, .f32⟩ : BufTy).Contents (Elt F)),
    nullary main_cst_12 (constant S_ .f32 0x3727C5AC#32),
    unary main_cst_12 main_v56 (broadcastInDim S16x8192x1 ![] bcast_S_S16x8192x1 : (⟨S_, .f32⟩ : BufTy).Contents (Elt F) → (⟨S16x8192x1, .f32⟩ : BufTy).Contents (Elt F)),
    binary main_v53 main_v56 main_v57 (addf : (⟨S16x8192x1, .f32⟩ : BufTy).Contents (Elt F) → (⟨S16x8192x1, .f32⟩ : BufTy).Contents (Elt F) → (⟨S16x8192x1, .f32⟩ : BufTy).Contents (Elt F)),
    unary main_v57 main_v58 (Host.rsqrt : (⟨S16x8192x1, .f32⟩ : BufTy).Contents (Elt F) → (⟨S16x8192x1, .f32⟩ : BufTy).Contents (Elt F)),
    unary main_v58 main_v59 (broadcastInDim S16x8192x256 ![0, 1, 2] bcast_S16x8192x1_S16x8192x256_0_1_2 : (⟨S16x8192x1, .f32⟩ : BufTy).Contents (Elt F) → (⟨S16x8192x256, .f32⟩ : BufTy).Contents (Elt F)),
    binary main_v55 main_v59 main_v60 (mulf : (⟨S16x8192x256, .f32⟩ : BufTy).Contents (Elt F) → (⟨S16x8192x256, .f32⟩ : BufTy).Contents (Elt F) → (⟨S16x8192x256, .f32⟩ : BufTy).Contents (Elt F)),
    unary main_arg4 main_v61 (broadcastInDim S1x1x256 ![2] bcast_S256_S1x1x256_2 : (⟨S256, .f32⟩ : BufTy).Contents (Elt F) → (⟨S1x1x256, .f32⟩ : BufTy).Contents (Elt F)),
    unary main_v61 main_v62 (broadcastInDim S16x8192x256 ![0, 1, 2] bcast_S1x1x256_S16x8192x256_0_1_2 : (⟨S1x1x256, .f32⟩ : BufTy).Contents (Elt F) → (⟨S16x8192x256, .f32⟩ : BufTy).Contents (Elt F)),
    binary main_v60 main_v62 main_v63 (mulf : (⟨S16x8192x256, .f32⟩ : BufTy).Contents (Elt F) → (⟨S16x8192x256, .f32⟩ : BufTy).Contents (Elt F) → (⟨S16x8192x256, .f32⟩ : BufTy).Contents (Elt F)),
    unary main_arg5 main_v64 (broadcastInDim S1x1x256 ![2] bcast_S256_S1x1x256_2 : (⟨S256, .f32⟩ : BufTy).Contents (Elt F) → (⟨S1x1x256, .f32⟩ : BufTy).Contents (Elt F)),
    unary main_v64 main_v65 (broadcastInDim S16x8192x256 ![0, 1, 2] bcast_S1x1x256_S16x8192x256_0_1_2 : (⟨S1x1x256, .f32⟩ : BufTy).Contents (Elt F) → (⟨S16x8192x256, .f32⟩ : BufTy).Contents (Elt F)),
    binary main_v63 main_v65 main_v66 (addf : (⟨S16x8192x256, .f32⟩ : BufTy).Contents (Elt F) → (⟨S16x8192x256, .f32⟩ : BufTy).Contents (Elt F) → (⟨S16x8192x256, .f32⟩ : BufTy).Contents (Elt F)) ]

set_option maxRecDepth 4096 in
set_option maxHeartbeats 4000000 in
/-- The reference is that straight line: the outlined functions unfolded at their calls, both sides are one chain of
    operations once sequencing is reassociated. -/
theorem main_eq (c : Dev nD) : main (F := F) c = seq (opsPool ++ opsTail) := by
  rw [seq_append]
  simp only [main, main_part0, main_part1, fn_cumsum.body, fn_cumsum_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the first part touches TensorCore buffers only. -/
theorem opsPool_sub : (opsPool : List (HloOp τ sig (Elt F))).Forall fun op => op.bufs ⊆ tcRefs τ sig :=
  ⟨nullary_bufs_sub .., unary_bufs_sub .., binary_bufs_sub .., unary_bufs_sub .., nullary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., unary_bufs_sub .., binary_bufs_sub .., nullary_bufs_sub .., unary_bufs_sub .., unary_bufs_sub .., ternary_bufs_sub .., reshape_bufs_sub .., reshape_bufs_sub .., nullary_bufs_sub .., unary_bufs_sub .., unary_bufs_sub .., ternary_bufs_sub .., unary_bufs_sub .., nullary_bufs_sub .., unary_bufs_sub .., nullary_bufs_sub .., unary_bufs_sub .., unary_bufs_sub .., ternary_bufs_sub .., unary_bufs_sub .., reshape_bufs_sub .., reshape_bufs_sub ..⟩
/-- Every operation of the second part touches TensorCore buffers only. -/
theorem opsTail_sub : (opsTail : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem ops_sub : (opsPool ++ opsTail : List (HloOp τ sig (Elt F))).Forall fun op => op.bufs ⊆ tcRefs τ sig :=
  List.forall_iff_forall_mem.2 fun op h => (List.mem_append.1 h).elim
    (List.forall_iff_forall_mem.1 opsPool_sub op) (List.forall_iff_forall_mem.1 opsTail_sub op)

/-- Every operation of the first part determines what it writes. -/
theorem opsPool_fresh : ∀ op ∈ (opsPool : List (HloOp τ sig (Elt F))), op.fresh = ∅ := by
  intro _ h; (repeat (cases h with | head => rfl | tail _ h => ?_)); exact nomatch h
/-- Every operation of the second part determines what it writes. -/
theorem opsTail_fresh : ∀ op ∈ (opsTail : List (HloOp τ sig (Elt F))), op.fresh = ∅ := by
  intro _ h; (repeat (cases h with | head => rfl | tail _ h => ?_)); exact nomatch h

/-- On every device, for any float values, from any memory with zero counters: every weakly fair execution of the
    reference terminates, and every final state has each buffer at the fold of the operations' results over what the
    device held at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (opsPool ++ opsTail) (launchContents m c) (b : DevRef τ sig) :=
  run_seq scopedRefs_eq scopedSems_eq defs main (fun _ => opsPool ++ opsTail) main_eq (fun _ => ops_sub) m ρ
    (fun _ op h => (List.mem_append.1 h).elim (opsPool_fresh op) (opsTail_fresh op))

/-! ## The first part, read back -/

/-- Where a token is a boundary: its id is zero. -/
def isBoundary (ids : IVec S16x8192 32) : IVec S16x8192 1 :=
  cmpi .eq ids (broadcastInDim S16x8192 ![] bcast_S_S16x8192 (constantI S_ 32 0#32))

/-- Where a segment starts: at a token that is no boundary and is the first of its row or follows a boundary. -/
def segStart (ids : IVec S16x8192 32) : IVec S16x8192 1 :=
  andi (noti (isBoundary ids))
    (concatenate S16x8192 1
      [⟨S16x1, broadcastInDim S16x1 ![] bcast_S_S16x1 (constantI S_ 1 1#1)⟩,
       ⟨S16x8191, extractStridedSlice S16x8191 ![0, 0] (isBoundary ids) slices_S16x8192_S16x8191_0_0⟩]
      concatenates_S16x1_S16x8191_S16x8192_d1)

/-- The flat segment id of every token, row-major: for a token that is no boundary, 8192 times its row plus the
    number of segment starts in its row up to and including it, less one; for a boundary token 131072, one past the
    last segment. -/
def flatIds (ids : IVec S16x8192 32) : IVec S131072 32 :=
  shapeCast S131072
    (select (noti (isBoundary ids))
      (addi
        (subi
          (Host.reduceWindow IntOp.addi ![1, 8192] ![1, 1] ![0, 8191] ![0, 0] (extui 32 (segStart ids) natLt_1_32)
            (broadcastInDim S_ ![] bcast_S_S_ (constantI S_ 32 0#32))
            reduceWindows_S16x8192_S16x8192_w1s1p0_0_w8192s1p8191_0 h_S_)
          (broadcastInDim S16x8192 ![] bcast_S_S16x8192 (constantI S_ 32 1#32)))
        (broadcastInDim S16x8192 ![0, 1] bcast_S16x1_S16x8192_0_1
          (muli (broadcastInDim S16x1 ![0] bcast_S16_S16x1_0 (iotaInDim S16 32 0))
            (broadcastInDim S16x1 ![] bcast_S_S16x1 (constantI S_ 32 8192#32)))))
      (broadcastInDim S16x8192 ![] bcast_S_S16x8192 (constantI S_ 32 131072#32)))
    shapeCasts_S16x8192_S131072

/-- The per-segment sums: row `r` of the result, read row-major, is the sum of the rows of `x` whose flat segment id
    is `r` (the rows sent to 131072 are dropped). -/
def poolSums (x : FVec F S16x8192x256 .f32) (ids : IVec S16x8192 32) : FVec F S16x8192x256 .f32 :=
  shapeCast S16x8192x256
    (extractStridedSlice S131072x256 ![0, 0]
      (Host.scatterAdd scatter_S131073x256_S131072x1_S131072x256_1_0_0_1
        (broadcastInDim S131073x256 ![] bcast_S_S131073x256 (constant (F := F) S_ .f32 0x00000000#32))
        (broadcastInDim S131072x1 ![0] bcast_S131072_S131072x1_0 (flatIds ids))
        (shapeCast S131072x256 x shapeCasts_S16x8192x256_S131072x256))
      slices_S131073x256_S131072x256_0_0)
    shapeCasts_S131072x256_S16x8192x256

/-- The per-segment counts: entry `r` of the result, read row-major, is the sum of as many ones as there are tokens whose
    flat segment id is `r`. -/
def poolCounts (ids : IVec S16x8192 32) : FVec F S16x8192 .f32 :=
  shapeCast S16x8192
    (extractStridedSlice S131072 ![0]
      (Host.scatterAdd scatter_S131073_S131072x1_S131072_n_0_0_1
        (broadcastInDim S131073 ![] bcast_S_S131073 (constant (F := F) S_ .f32 0x00000000#32))
        (broadcastInDim S131072x1 ![0] bcast_S131072_S131072x1_0 (flatIds ids))
        (broadcastInDim S131072 ![] bcast_S_S131072 (constant (F := F) S_ .f32 0x3F800000#32)))
      slices_S131073_S131072_0)
    shapeCasts_S131072_S16x8192

attribute [local irreducible] Host.scatterAdd Host.reduceWindow concatenate in
set_option maxRecDepth 8192 in
set_option maxHeartbeats 2000000 in
/-- After the first part the buffer of the per-segment sums holds them, of the input and the ids the part started from. -/
theorem pool_sums (V : Valuation τ sig (Elt F)) :
    after opsPool V (main_v29 : DevRef τ sig) = poolSums (V (main_arg0 : DevRef τ sig)) (V (main_arg1 : DevRef τ sig)) := by
  after_results_simp
  rfl

attribute [local irreducible] Host.scatterAdd Host.reduceWindow concatenate in
set_option maxRecDepth 8192 in
set_option maxHeartbeats 2000000 in
/-- After the first part the buffer of the per-segment counts holds them, of the ids the part started from. -/
theorem pool_counts (V : Valuation τ sig (Elt F)) :
    after opsPool V (main_v30 : DevRef τ sig) = poolCounts (F := F) (V (main_arg1 : DevRef τ sig)) := by
  after_results_simp
  rfl

/-- The first part leaves argument 0 as it was. -/
theorem pool_arg0 (V : Valuation τ sig (Elt F)) :
    after opsPool V (main_arg0 : DevRef τ sig) = V (main_arg0 : DevRef τ sig) := by
  after_results_simp

/-- The first part leaves argument 1 as it was. -/
theorem pool_arg1 (V : Valuation τ sig (Elt F)) :
    after opsPool V (main_arg1 : DevRef τ sig) = V (main_arg1 : DevRef τ sig) := by
  after_results_simp

/-- The first part leaves argument 2 as it was. -/
theorem pool_arg2 (V : Valuation τ sig (Elt F)) :
    after opsPool V (main_arg2 : DevRef τ sig) = V (main_arg2 : DevRef τ sig) := by
  after_results_simp

/-- The first part leaves argument 3 as it was. -/
theorem pool_arg3 (V : Valuation τ sig (Elt F)) :
    after opsPool V (main_arg3 : DevRef τ sig) = V (main_arg3 : DevRef τ sig) := by
  after_results_simp

/-- The first part leaves argument 4 as it was. -/
theorem pool_arg4 (V : Valuation τ sig (Elt F)) :
    after opsPool V (main_arg4 : DevRef τ sig) = V (main_arg4 : DevRef τ sig) := by
  after_results_simp

/-- The first part leaves argument 5 as it was. -/
theorem pool_arg5 (V : Valuation τ sig (Elt F)) :
    after opsPool V (main_arg5 : DevRef τ sig) = V (main_arg5 : DevRef τ sig) := by
  after_results_simp

/-! ## The second part, read back -/

/-- The mean of each segment: its sum over its count, a count below one read as one. -/
def segMean (S : FVec F S16x8192x256 .f32) (C : FVec F S16x8192 .f32) : FVec F S16x8192x256 .f32 :=
  Host.divf S
    (broadcastInDim S16x8192x256 ![0, 1, 2] bcast_S16x8192x1_S16x8192x256_0_1_2
      (broadcastInDim S16x8192x1 ![0, 1] bcast_S16x8192_S16x8192x1_0_1
        (maximumf C (broadcastInDim S16x8192 ![] bcast_S_S16x8192 (constant (F := F) S_ .f32 0x3F800000#32)))))

/-- The linear layer on the segment means: entry `e` of a segment is the sum over `d` of the mean's entry `d` times
    the weight's entry `(e, d)`, plus the bias's entry `e`. -/
def linOut (S : FVec F S16x8192x256 .f32) (C : FVec F S16x8192 .f32) (W : FVec F S256x256 .f32) (b : FVec F S256 .f32) :
    FVec F S16x8192x256 .f32 :=
  addf (Host.dotGeneral dot_S16x8192x256_S256x256_S16x8192x256_2_1_01_0_n_n none (segMean S C) W)
    (broadcastInDim S16x8192x256 ![0, 1, 2] bcast_S1x1x256_S16x8192x256_0_1_2
      (broadcastInDim S1x1x256 ![2] bcast_S256_S1x1x256_2 b))

/-- The mean of each segment's 256 outputs of the linear layer: their sum over 256. -/
def rowMean (S : FVec F S16x8192x256 .f32) (C : FVec F S16x8192 .f32) (W : FVec F S256x256 .f32) (b : FVec F S256 .f32) :
    FVec F S16x8192x1 .f32 :=
  Host.divf
    (broadcastInDim S16x8192x1 ![0, 1] bcast_S16x8192_S16x8192x1_0_1
      (Host.reduceAdd (linOut S C W b) (constant (F := F) S_ .f32 0x00000000#32) reducesTo_S16x8192x256_S16x8192_d2 h_S_))
    (broadcastInDim S16x8192x1 ![] bcast_S_S16x8192x1 (constant (F := F) S_ .f32 0x43800000#32))

/-- Each segment's outputs of the linear layer less their mean. -/
def centered (S : FVec F S16x8192x256 .f32) (C : FVec F S16x8192 .f32) (W : FVec F S256x256 .f32) (b : FVec F S256 .f32) :
    FVec F S16x8192x256 .f32 :=
  subf (linOut S C W b)
    (broadcastInDim S16x8192x256 ![0, 1, 2] bcast_S16x8192x1_S16x8192x256_0_1_2 (rowMean S C W b))

/-- The first result: the layer normalization of the linear layer's outputs — each segment's centered outputs times the
    reciprocal square root of their mean square plus the constant 0x3727C5AC (the float nearest 1e-5), times the scale,
    plus the shift. -/
def tailOut (S : FVec F S16x8192x256 .f32) (C : FVec F S16x8192 .f32) (W : FVec F S256x256 .f32)
    (b g be : FVec F S256 .f32) : FVec F S16x8192x256 .f32 :=
  addf
    (mulf
      (mulf (centered S C W b)
        (broadcastInDim S16x8192x256 ![0, 1, 2] bcast_S16x8192x1_S16x8192x256_0_1_2
          (Host.rsqrt
            (addf
              (Host.divf
                (broadcastInDim S16x8192x1 ![0, 1] bcast_S16x8192_S16x8192x1_0_1
                  (Host.reduceAdd (mulf (centered S C W b) (centered S C W b)) (constant (F := F) S_ .f32 0x00000000#32)
                    reducesTo_S16x8192x256_S16x8192_d2 h_S_))
                (broadcastInDim S16x8192x1 ![] bcast_S_S16x8192x1 (constant (F := F) S_ .f32 0x43800000#32)))
              (broadcastInDim S16x8192x1 ![] bcast_S_S16x8192x1 (constant (F := F) S_ .f32 0x3727C5AC#32))))))
      (broadcastInDim S16x8192x256 ![0, 1, 2] bcast_S1x1x256_S16x8192x256_0_1_2
        (broadcastInDim S1x1x256 ![2] bcast_S256_S1x1x256_2 g)))
    (broadcastInDim S16x8192x256 ![0, 1, 2] bcast_S1x1x256_S16x8192x256_0_1_2
      (broadcastInDim S1x1x256 ![2] bcast_S256_S1x1x256_2 be))

/-- The second result: one where a segment's count is above zero, zero elsewhere. -/
def tailMask (C : FVec F S16x8192 .f32) : FVec F S16x8192 .f32 :=
  uitofp .f32 (cmpf .ogt C (broadcastInDim S16x8192 ![] bcast_S_S16x8192 (constant (F := F) S_ .f32 0x00000000#32)))

attribute [local irreducible] Host.reduceAdd in
set_option maxRecDepth 8192 in
set_option maxHeartbeats 4000000 in
/-- After the second part the first result's buffer holds the normalized outputs, of the sums, the counts and the four
    parameters the part started from. -/
theorem tail_out (W : Valuation τ sig (Elt F)) :
    after opsTail W (main_v66 : DevRef τ sig)
      = tailOut (W (main_v29 : DevRef τ sig)) (W (main_v30 : DevRef τ sig)) (W (main_arg2 : DevRef τ sig))
          (W (main_arg3 : DevRef τ sig)) (W (main_arg4 : DevRef τ sig)) (W (main_arg5 : DevRef τ sig)) := by
  after_results_simp
  rfl

/-- After the second part the second result's buffer holds the mask, of the counts the part started from. -/
theorem tail_mask (W : Valuation τ sig (Elt F)) :
    after opsTail W (main_v33 : DevRef τ sig) = tailMask (W (main_v30 : DevRef τ sig)) := by
  after_results_simp
  rfl

/-- The second part leaves argument 0 as it was. -/
theorem tail_arg0 (W : Valuation τ sig (Elt F)) :
    after opsTail W (main_arg0 : DevRef τ sig) = W (main_arg0 : DevRef τ sig) := by
  after_results_simp

/-- The second part leaves argument 1 as it was. -/
theorem tail_arg1 (W : Valuation τ sig (Elt F)) :
    after opsTail W (main_arg1 : DevRef τ sig) = W (main_arg1 : DevRef τ sig) := by
  after_results_simp

/-- The second part leaves argument 2 as it was. -/
theorem tail_arg2 (W : Valuation τ sig (Elt F)) :
    after opsTail W (main_arg2 : DevRef τ sig) = W (main_arg2 : DevRef τ sig) := by
  after_results_simp

/-- The second part leaves argument 3 as it was. -/
theorem tail_arg3 (W : Valuation τ sig (Elt F)) :
    after opsTail W (main_arg3 : DevRef τ sig) = W (main_arg3 : DevRef τ sig) := by
  after_results_simp

/-- The second part leaves argument 4 as it was. -/
theorem tail_arg4 (W : Valuation τ sig (Elt F)) :
    after opsTail W (main_arg4 : DevRef τ sig) = W (main_arg4 : DevRef τ sig) := by
  after_results_simp

/-- The second part leaves argument 5 as it was. -/
theorem tail_arg5 (W : Valuation τ sig (Elt F)) :
    after opsTail W (main_arg5 : DevRef τ sig) = W (main_arg5 : DevRef τ sig) := by
  after_results_simp

/-! ## The whole run -/

/-- On every device, for any float values, from any memory with zero counters: every weakly fair execution of the
    reference terminates with the first result at the normalized outputs and the second at the mask, both of the
    per-segment sums and counts of the arguments the launch found, and the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66)
          = tailOut (poolSums (m ((c.tc : Thread nD τ).loc main_arg0)) (m ((c.tc : Thread nD τ).loc main_arg1)))
              (poolCounts (m ((c.tc : Thread nD τ).loc main_arg1))) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_v33) = tailMask (poolCounts (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v66).trans (by
        rw [after_append, tail_out, pool_sums, pool_counts, pool_arg2, pool_arg3, pool_arg4, pool_arg5]),
      (h c main_v33).trans (by rw [after_append, tail_mask, pool_counts]),
      (h c main_arg0).trans (by rw [after_append, tail_arg0, pool_arg0]),
      (h c main_arg1).trans (by rw [after_append, tail_arg1, pool_arg1]),
      (h c main_arg2).trans (by rw [after_append, tail_arg2, pool_arg2]),
      (h c main_arg3).trans (by rw [after_append, tail_arg3, pool_arg3]),
      (h c main_arg4).trans (by rw [after_append, tail_arg4, pool_arg4]),
      (h c main_arg5).trans (by rw [after_append, tail_arg5, pool_arg5])⟩)
    (run_main m ρ)

end Cert.ReferenceIdeal.RefRun

end
-- ==== Proof.RefTail.lean ====
/-
  The reference's second part, read at one element.

  At the extended reals every operation of the second part is exact, so the arrays it computes can be read entry by
  entry. The keep-dims broadcasts read their operand at coordinate `0` of the unit axis, the broadcasts of a
  per-channel vector read it at the channel, the product with the weights is the sum over the 256 contracted channels
  (read through the one-axis contraction's bijection with `Fin 256`), and a sum along the channels is a
  `Fin`-indexed sum from the initial value `0`. Read at segment `(p, q)` and channel `e` the first result is entry
  `e` of the normalised projected row of the segment's sums and count, scaled and shifted; the second result at
  `(p, q)` is one where the count is positive and zero elsewhere.
-/
import proofs.«155131_j13529146983189_2_alg».proof.Proof.RefRun
import proofs.«155131_j13529146983189_2_alg».proof.Proof.RowSpec
import Idealize.ShloMosaic.Lib.ValueIdx
import Idealize.ShloMosaic.Lib.Pipeline.Value
import Idealize.ShloMosaic.PureOps.Ideal.Laws

noncomputable section

open scoped BigOperators

namespace Cert.RefTail

open Cert.ReferenceIdeal Cert.ReferenceIdeal.Gen Cert.ReferenceIdeal.RefRun Idealize.ShloMosaic Idealize.ShloMosaic.ValueIdx Cert.RowSpec

/-! ## The product with the weights -/

local notation "D" => dot_S16x8192x256_S256x256_S16x8192x256_2_1_01_0_n_n

theorem D_lhs0 (j : S16x8192x256.Idx) (k : (D).contr.Idx) : ((D).lhsIdx j k 0 : ℕ) = j 0 := by
  simp [DotDims.lhsIdx, dot_S16x8192x256_S256x256_S16x8192x256_2_1_01_0_n_n]; rfl
theorem D_lhs1 (j : S16x8192x256.Idx) (k : (D).contr.Idx) : ((D).lhsIdx j k 1 : ℕ) = j 1 := by
  simp [DotDims.lhsIdx, dot_S16x8192x256_S256x256_S16x8192x256_2_1_01_0_n_n]; rfl
theorem D_lhs2 (j : S16x8192x256.Idx) (k : (D).contr.Idx) : ((D).lhsIdx j k 2 : ℕ) = k ⟨0, by decide⟩ := by
  simp [DotDims.lhsIdx, dot_S16x8192x256_S256x256_S16x8192x256_2_1_01_0_n_n]; rfl
theorem D_rhs0 (j : S16x8192x256.Idx) (k : (D).contr.Idx) : ((D).rhsIdx j k 0 : ℕ) = j 2 := by
  simp [DotDims.rhsIdx, dot_S16x8192x256_S256x256_S16x8192x256_2_1_01_0_n_n]; rfl
theorem D_rhs1 (j : S16x8192x256.Idx) (k : (D).contr.Idx) : ((D).rhsIdx j k 1 : ℕ) = k ⟨0, by decide⟩ := by
  simp [DotDims.rhsIdx, dot_S16x8192x256_S256x256_S16x8192x256_2_1_01_0_n_n]; rfl

/-- The product of the rows with the weights at segment `(p, q)`, channel `e`: the sum over the contracted channel `k` of
    the row's entry `k` times the weight's entry `(e, k)`. -/
theorem dot_apply (L : FVec Ideal S16x8192x256 .f32) (R : FVec Ideal S256x256 .f32) (p : Fin 16) (q : Fin 8192) (e : Fin 256) :
    Host.dotGeneral (D) none L R (ix3 p q e) = ∑ k : Fin 256, L (ix3 p q k) * R (ix2 e k) := by
  refine (Ideal.dotGeneral_apply (D) none .single L R (ix3 p q e)).trans ?_
  rw [← Equiv.sum_comp (contrEquiv1 (D) 256 rfl rfl).symm]
  refine Finset.sum_congr rfl fun k _ => ?_
  have hk := contrEquiv1_symm_val (D) 256 rfl rfl k
  congr 2
  · funext a; apply Fin.ext
    match a with
    | ⟨0, _⟩ => exact (D_lhs0 _ _)
    | ⟨1, _⟩ => exact (D_lhs1 _ _)
    | ⟨2, _⟩ => exact (D_lhs2 _ _).trans hk
  · funext a; apply Fin.ext
    match a with
    | ⟨0, _⟩ => exact (D_rhs0 _ _)
    | ⟨1, _⟩ => exact (D_rhs1 _ _).trans hk

/-! ## The layout operations, read at an index -/

/-- A constant laid over any shape reads the constant everywhere. -/
theorem splat_apply {t : Shape} (h : S_.BroadcastsInDim t (![] : Fin 0 → Fin t.rank)) (w : BitVec 32) (j : t.Idx) :
    broadcastInDim t ![] h (constant (F := Ideal) S_ .f32 w) j = Ideal.ofBits .f32 w := rfl

/-- A per-segment column laid along the channels: segment `(p, q)`'s value at every channel. -/
theorem keep3_apply (h : S16x8192x1.BroadcastsInDim S16x8192x256 (![0, 1, 2] : Fin 3 → Fin 3)) (Y : FVec Ideal S16x8192x1 .f32)
    (p : Fin 16) (q : Fin 8192) (e : Fin 256) :
    broadcastInDim S16x8192x256 ![0, 1, 2] h Y (ix3 p q e) = Y (ix3 p q (0 : Fin 1)) :=
  broadcastInDim_apply _ h Y (ix3 p q e) (ix3 p q (0 : Fin 1)) (fun a => match a with
    | ⟨0, _⟩ => by show p.val = (if (16 : Nat) = 1 then 0 else p.val); rw [if_neg (by decide)]
    | ⟨1, _⟩ => by show q.val = (if (8192 : Nat) = 1 then 0 else q.val); rw [if_neg (by decide)]
    | ⟨2, _⟩ => by show 0 = (if (1 : Nat) = 1 then 0 else e.val); rw [if_pos rfl])

/-- A per-segment value given a unit channel axis: segment `(p, q)`'s value. -/
theorem keep2_apply (h : S16x8192.BroadcastsInDim S16x8192x1 (![0, 1] : Fin 2 → Fin 3)) (Y : FVec Ideal S16x8192 .f32)
    (p : Fin 16) (q : Fin 8192) (z : Fin 1) :
    broadcastInDim S16x8192x1 ![0, 1] h Y (ix3 p q z) = Y (ix2 p q) :=
  broadcastInDim_apply _ h Y (ix3 p q z) (ix2 p q) (fun a => match a with
    | ⟨0, _⟩ => by show p.val = (if (16 : Nat) = 1 then 0 else p.val); rw [if_neg (by decide)]
    | ⟨1, _⟩ => by show q.val = (if (8192 : Nat) = 1 then 0 else q.val); rw [if_neg (by decide)])

/-- A per-channel vector laid over the segments: channel `e`'s value at every segment. -/
theorem chan_apply (h : S1x1x256.BroadcastsInDim S16x8192x256 (![0, 1, 2] : Fin 3 → Fin 3))
    (h' : S256.BroadcastsInDim S1x1x256 (![2] : Fin 1 → Fin 3)) (P : FVec Ideal S256 .f32)
    (p : Fin 16) (q : Fin 8192) (e : Fin 256) :
    broadcastInDim S16x8192x256 ![0, 1, 2] h (broadcastInDim S1x1x256 ![2] h' P) (ix3 p q e) = P (ix1 e) := by
  refine (broadcastInDim_apply _ h _ (ix3 p q e) (ix3 (0 : Fin 1) (0 : Fin 1) e) (fun a => match a with
    | ⟨0, _⟩ => by show 0 = (if (1 : Nat) = 1 then 0 else p.val); rw [if_pos rfl]
    | ⟨1, _⟩ => by show 0 = (if (1 : Nat) = 1 then 0 else q.val); rw [if_pos rfl]
    | ⟨2, _⟩ => by show e.val = (if (256 : Nat) = 1 then 0 else e.val); rw [if_neg (by decide)])).trans ?_
  exact broadcastInDim_apply _ h' P (ix3 (0 : Fin 1) (0 : Fin 1) e) (ix1 e) (fun a => match a with
    | ⟨0, _⟩ => by show e.val = (if (256 : Nat) = 1 then 0 else e.val); rw [if_neg (by decide)])

/-- The host's quotient and reciprocal square root at an index. -/
theorem hdivf_apply {s : Shape} {φ : FTy} (a b : FVec Ideal s φ) (i : s.Idx) : Host.divf a b i = Ideal.div (a i) (b i) := rfl
theorem hrsqrt_apply {s : Shape} {φ : FTy} (a : FVec Ideal s φ) (i : s.Idx) : Host.rsqrt a i = Ideal.rsqrt (a i) := rfl

/-- The sum over the channels of segment `(p, q)`, from the initial value zero. -/
theorem rowsum_apply (h' : S16x8192x256.ReducesTo [2] S16x8192) (hu : 0 < S_.numel) (X : FVec Ideal S16x8192x256 .f32)
    (p : Fin 16) (q : Fin 8192) :
    Host.reduceAdd X (constant (F := Ideal) S_ .f32 0x00000000#32) h' hu (ix2 p q) = ∑ e : Fin 256, X (ix3 p q e) := by
  have h : S16x8192x256.Reduces [2] S16x8192 := by decide
  refine (Ideal.hostReduceAdd_single h' h X (Ideal.ofBits .f32 0x00000000#32) (ix2 p q)).trans ?_
  rw [Ideal.ofBits_zero_f32, zero_add]
  refine Finset.sum_congr rfl fun e _ => ?_
  congr 1; funext a; apply Fin.ext
  match a with
  | ⟨0, _⟩ => rfl
  | ⟨1, _⟩ => rfl
  | ⟨2, _⟩ => rfl

/-! ## The second part's values at an index -/

variable (S : FVec Ideal S16x8192x256 .f32) (C : FVec Ideal S16x8192 .f32) (W : FVec Ideal S256x256 .f32)
  (b g be : FVec Ideal S256 .f32) (p : Fin 16) (q : Fin 8192)

/-- The segment's mean row: its sums over its count clamped below at one. -/
theorem segMean_apply (d : Fin 256) :
    segMean S C (ix3 p q d) = Ideal.div (S (ix3 p q d)) (max (C (ix2 p q)) one) := by
  unfold segMean
  refine (hdivf_apply _ _ _).trans ?_
  rw [keep3_apply, keep2_apply]
  rfl

/-- The linear layer at `(p, q, e)` is entry `e` of the projected row of segment `(p, q)`. -/
theorem linOut_apply (e : Fin 256) :
    linOut S C W b (ix3 p q e) = projRow (fun d => S (ix3 p q d)) (C (ix2 p q)) W b e := by
  unfold linOut projRow
  refine (addf_apply _ _ _).trans ?_
  rw [chan_apply, dot_apply]
  congr 1
  refine Finset.sum_congr rfl fun d _ => ?_
  rw [segMean_apply]

/-- The mean of the segment's outputs of the linear layer. -/
theorem rowMean_apply :
    rowMean S C W b (ix3 p q (0 : Fin 1)) = mean (fun e => linOut S C W b (ix3 p q e)) := by
  unfold rowMean mean
  refine (hdivf_apply _ _ _).trans ?_
  rw [keep2_apply, rowsum_apply]
  rfl

/-- The segment's outputs less their mean. -/
theorem centered_apply (e : Fin 256) :
    centered S C W b (ix3 p q e)
      = linOut S C W b (ix3 p q e) - mean (fun e' => linOut S C W b (ix3 p q e')) := by
  unfold centered
  refine (subf_apply _ _ _).trans ?_
  rw [keep3_apply, rowMean_apply]

/-- The first result at `(p, q, e)`: entry `e` of the normalised projected row of segment `(p, q)`, scaled and shifted. -/
theorem tailOut_apply (e : Fin 256) :
    tailOut S C W b g be (ix3 p q e) = outAt S C W b g be p q e := by
  have hv : (fun e' => linOut S C W b (ix3 p q e')) = projRow (fun d => S (ix3 p q d)) (C (ix2 p q)) W b :=
    funext fun e' => linOut_apply S C W b p q e'
  have hc : ∀ e' : Fin 256, centered S C W b (ix3 p q e')
      = projRow (fun d => S (ix3 p q d)) (C (ix2 p q)) W b e'
        - mean (projRow (fun d => S (ix3 p q d)) (C (ix2 p q)) W b) := fun e' => by
    rw [centered_apply, hv, linOut_apply]
  have hsq : (∑ e' : Fin 256, mulf (centered S C W b) (centered S C W b) (ix3 p q e'))
      = ∑ e' : Fin 256, (projRow (fun d => S (ix3 p q d)) (C (ix2 p q)) W b e'
            - mean (projRow (fun d => S (ix3 p q d)) (C (ix2 p q)) W b))
          * (projRow (fun d => S (ix3 p q d)) (C (ix2 p q)) W b e'
            - mean (projRow (fun d => S (ix3 p q d)) (C (ix2 p q)) W b)) :=
    Finset.sum_congr rfl fun e' _ => (mulf_apply _ _ _).trans (by rw [hc e'])
  unfold tailOut outAt normRow
  refine (addf_apply _ _ _).trans ?_
  rw [chan_apply]
  refine congrArg (· + be (ix1 e)) ?_
  refine (mulf_apply _ _ _).trans ?_
  rw [chan_apply]
  refine congrArg (· * g (ix1 e)) ?_
  refine (mulf_apply _ _ _).trans ?_
  rw [keep3_apply, hc e]
  refine congrArg (fun x : EReal => (projRow (fun d => S (ix3 p q d)) (C (ix2 p q)) W b e
      - mean (projRow (fun d => S (ix3 p q d)) (C (ix2 p q)) W b)) * x) ?_
  refine (hrsqrt_apply _ _).trans ?_
  refine congrArg Ideal.rsqrt ?_
  refine (addf_apply _ _ _).trans ?_
  refine congrArg (· + eps) ?_
  refine (hdivf_apply _ _ _).trans ?_
  rw [keep2_apply, rowsum_apply, hsq]
  rfl

/-- The second result at `(p, q)`: one where the segment's count is positive, zero elsewhere. -/
theorem tailMask_apply : tailMask C (ix2 p q) = maskAt C p q := rfl

/-! ## The array forms -/

theorem tailOut_eq : tailOut S C W b g be = out S C W b g be := by
  funext i
  obtain ⟨p, q, e, rfl⟩ : ∃ (p : Fin 16) (q : Fin 8192) (e : Fin 256), i = ix3 p q e := ⟨i 0, i 1, i 2, eq_ix3 i⟩
  rw [out_ix3]
  exact tailOut_apply S C W b g be p q e

theorem tailMask_eq : tailMask C = mask C := by
  funext i
  obtain ⟨p, q, rfl⟩ : ∃ (p : Fin 16) (q : Fin 8192), i = ix2 p q := ⟨i 0, i 1, eq_ix2 i⟩
  rw [mask_ix2]
  exact tailMask_apply C p q

end Cert.RefTail

end
-- ==== Proof.lean ====
/-
  The kernel and its reference compute the same two arrays on the extended reals.

  Both programs pool the input over boundary-delimited segments on the host — a flat segment id per token,
  then a scatter-add of the token rows under those ids — and then, per segment, divide the sums by the
  count clamped below at one, apply a linear layer, and layer-normalise; the second result marks the
  segments whose count is positive. They differ in two places. The kernel program scatters ONE 257-column
  array, the rows with a column of ones appended, and splits sums and counts off afterwards, where the
  reference scatters the rows and a vector of ones separately: a scatter-add at the extended reals is the
  operand plus the exact sum of the updates landing on each element, column by column, so the two agree
  (ScatterRows). And the kernel program runs the per-segment part as a pipelined kernel over 2 × 16 blocks
  with the matrix product on flattened rows into a zero accumulator through a narrower float format, where
  the reference applies whole-array operations: at the extended reals a change of format is the identity
  and both products are the same sums, so each block the kernel writes back is a block of ONE whole-array
  function, RowSpec.out of the pooled arrays (KernelRow, KernelBlocks), which is also what the reference's
  operations compose to, index by index (RefTail). No law used needs finiteness: sums are only regrouped,
  never distributed over or cancelled. The three frames are the programs' runs with the results dropped;
  the idealisation rewrote nothing, so there is nothing to preserve.
-/
import proofs.«155131_j13529146983189_2_alg».proof.Defs
import proofs.«155131_j13529146983189_2_alg».proof.Proof.Gen.Kernel
import proofs.«155131_j13529146983189_2_alg».proof.Proof.Gen.Kernel.Frame
import proofs.«155131_j13529146983189_2_alg».proof.Proof.Gen.KernelIdeal
import proofs.«155131_j13529146983189_2_alg».proof.Proof.Gen.KernelIdeal.Frame
import proofs.«155131_j13529146983189_2_alg».proof.Proof.Gen.KernelIdeal.Value
import proofs.«155131_j13529146983189_2_alg».proof.Proof.Gen.ReferenceIdeal
import proofs.«155131_j13529146983189_2_alg».proof.Proof.Gen.Pre_finite_inputs
import proofs.«155131_j13529146983189_2_alg».proof.Proof.RowSpec
import proofs.«155131_j13529146983189_2_alg».proof.Proof.ScatterRows
import proofs.«155131_j13529146983189_2_alg».proof.Proof.KernelHost
import proofs.«155131_j13529146983189_2_alg».proof.Proof.KernelBlocks
import proofs.«155131_j13529146983189_2_alg».proof.Proof.RefRun
import proofs.«155131_j13529146983189_2_alg».proof.Proof.RefTail
import Idealize.ShloMosaic.Adequacy
import Idealize.ShloMosaic.Init

noncomputable section

namespace Cert.Proof

open Idealize.ShloMosaic Idealize.SL.Sem Cert.RowSpec

/-! ## The two pooled pairs are one pair

Both programs compute the flat segment ids by the same operations, so the two terms are one; the reference's two
scatters are, as terms, the two chains the scatter law is stated for; and that law says the kernel program's one
257-column scatter gives the same sums and counts. -/

theorem flat_eq (ids : IVec Cert.KernelIdeal.S16x8192 32) :
    Cert.KernelHost.flatIds ids = Cert.ReferenceIdeal.RefRun.flatIds ids := rfl

theorem poolSums_eq (x : FVec Ideal Cert.ReferenceIdeal.S16x8192x256 .f32) (ids : IVec Cert.ReferenceIdeal.S16x8192 32) :
    Cert.ReferenceIdeal.RefRun.poolSums x ids = Cert.ScatterRows.rSums x (Cert.ReferenceIdeal.RefRun.flatIds ids) := rfl

theorem poolCounts_eq (ids : IVec Cert.ReferenceIdeal.S16x8192 32) :
    Cert.ReferenceIdeal.RefRun.poolCounts (F := Ideal) ids = Cert.ScatterRows.rCounts (Cert.ReferenceIdeal.RefRun.flatIds ids) := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- Both programs end with the row function and the mask of the same pooled sums and counts. -/
theorem algebraic : Cert.algebraic_KernelIdeal_ReferenceIdeal := by
  intro m ρ m' ρ' _ hagree
  refine ⟨fun c => out
      (Cert.ScatterRows.rSums (m ((c.tc : Thread Cert.KernelIdeal.nD Cert.KernelIdeal.τ).loc Cert.KernelIdeal.main_arg0))
        (Cert.ReferenceIdeal.RefRun.flatIds (m ((c.tc : Thread Cert.KernelIdeal.nD Cert.KernelIdeal.τ).loc Cert.KernelIdeal.main_arg1))))
      (Cert.ScatterRows.rCounts
        (Cert.ReferenceIdeal.RefRun.flatIds (m ((c.tc : Thread Cert.KernelIdeal.nD Cert.KernelIdeal.τ).loc Cert.KernelIdeal.main_arg1))))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => mask (Cert.ScatterRows.rCounts
        (Cert.ReferenceIdeal.RefRun.flatIds (m ((c.tc : Thread Cert.KernelIdeal.nD Cert.KernelIdeal.τ).loc Cert.KernelIdeal.main_arg1)))), ?_, ?_⟩
  · refine (θ_run Cert.KernelIdeal.defs _ _).mono (fun r h c => ?_) (Cert.KernelBlocks.run m ρ)
    obtain ⟨h0, h1, hargs⟩ := h c
    refine ⟨?_, ?_, hargs⟩
    · rw [h0, Cert.KernelHost.V_sums, Cert.KernelHost.V_counts, Cert.KernelIdeal.Gen.V_main_arg2, Cert.KernelIdeal.Gen.V_main_arg3,
        Cert.KernelIdeal.Gen.V_main_arg4, Cert.KernelIdeal.Gen.V_main_arg5, Cert.ScatterRows.sums_eq, Cert.ScatterRows.counts_eq, flat_eq]
    · rw [h1, Cert.KernelHost.V_counts, Cert.ScatterRows.counts_eq, flat_eq]
  · refine (θ_run Cert.ReferenceIdeal.defs _ _).mono (fun r h c => ?_) (Cert.ReferenceIdeal.RefRun.run (F := Ideal) m' ρ')
    obtain ⟨h0, h1, hargs⟩ := h c
    obtain ⟨a0, a1, a2, a3, a4, a5⟩ := hagree c
    refine ⟨?_, ?_, hargs⟩
    · rw [h0, Cert.RefTail.tailOut_eq, poolSums_eq, poolCounts_eq, a0, a1, a2, a3, a4, a5]
    · rw [h1, Cert.RefTail.tailMask_eq, poolCounts_eq, a1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
